-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v89)) (v2 : (c : Dev Cert.KernelIdeal.nD) → Buf (Elt Ideal) ((c.tc : Thread Cert.KernelIdeal.nD Cert.KernelIdeal.τ).loc Cert.KernelIdeal.main_v90)) (v3 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_v90) = v2 c
          ∧ r.2.mem ((c.tc : Thread Cert.KernelIdeal.nD Cert.KernelIdeal.τ).loc Cert.KernelIdeal.main_v91) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S32 .f32) (main_arg16 : FVec F S32x1 .f32) (main_arg17 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg16
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S32x1 .f32) (main_arg13 : FVec F S1 .f32) (main_arg14 : FVec F S64x32 .f32) (main_arg15 : FVec F S32 .f32) (main_arg16 : FVec F S32x1 .f32) (main_arg17 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg15 main_arg16 main_arg17 main_v63 main_v67

def fn_part2 {F : FTy → Type} [FloatOps F] (main_arg8 : FVec F S32x1 .f32) (main_arg9 : FVec F S1 .f32) (main_arg10 : FVec F S64x32 .f32) (main_arg11 : FVec F S32 .f32) (main_arg12 : FVec F S32x1 .f32) (main_arg13 : FVec F S1 .f32) (main_arg14 : FVec F S64x32 .f32) (main_arg15 : FVec F S32 .f32) (main_arg16 : FVec F S32x1 .f32) (main_arg17 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64x32 .f32) (main_arg7 : FVec F S32 .f32) (main_arg8 : FVec F S32x1 .f32) (main_arg9 : FVec F S1 .f32) (main_arg10 : FVec F S64x32 .f32) (main_arg11 : FVec F S32 .f32) (main_arg12 : FVec F S32x1 .f32) (main_arg13 : FVec F S1 .f32) (main_arg14 : FVec F S64x32 .f32) (main_arg15 : FVec F S32 .f32) (main_arg16 : FVec F S32x1 .f32) (main_arg17 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x32 .f32) (main_arg7 : FVec F S32 .f32) (main_arg8 : FVec F S32x1 .f32) (main_arg9 : FVec F S1 .f32) (main_arg10 : FVec F S64x32 .f32) (main_arg11 : FVec F S32 .f32) (main_arg12 : FVec F S32x1 .f32) (main_arg13 : FVec F S1 .f32) (main_arg14 : FVec F S64x32 .f32) (main_arg15 : FVec F S32 .f32) (main_arg16 : FVec F S32x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S10000x1 : Shape := ⟨2, ![10000, 1]⟩
abbrev S1x32 : Shape := ⟨2, ![1, 32]⟩
abbrev S1x1 : Shape := ⟨2, ![1, 1]⟩
abbrev S100000x3 : Shape := ⟨2, ![100000, 3]⟩
abbrev S10000x3 : Shape := ⟨2, ![10000, 3]⟩
abbrev S10000x32 : Shape := ⟨2, ![10000, 32]⟩

abbrev nBuf : Space → Nat
  | .hbm => 130
  | .vmem => 44
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S32x1, .f32⟩
  | 9 => ⟨S1, .f32⟩
  | 10 => ⟨S64x32, .f32⟩
  | 11 => ⟨S32, .f32⟩
  | 12 => ⟨S32x1, .f32⟩
  | 13 => ⟨S1, .f32⟩
  | 14 => ⟨S64x32, .f32⟩
  | 15 => ⟨S32, .f32⟩
  | 16 => ⟨S32x1, .f32⟩
  | 17 => ⟨S1, .f32⟩
  | 18 => ⟨S1x3200000, .i32⟩
  | 19 => ⟨S3200000, .i32⟩
  | 20 => ⟨S1x3200000, .i32⟩
  | 21 => ⟨S3200000, .i32⟩
  | 22 => ⟨S100000x64, .f32⟩
  | 23 => ⟨S_, .f32⟩
  | 24 => ⟨S3200000, .f32⟩
  | 25 => ⟨S_, .f32⟩
  | 26 => ⟨S100000, .f32⟩
  | 27 => ⟨S3200000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x64, .f32⟩
  | 61 => ⟨S3200000x1, .f32⟩
  | 62 => ⟨S3200000x64, .f32⟩
  | 63 => ⟨S3200000x64, .f32⟩
  | 64 => ⟨S_, .f32⟩
  | 65 => ⟨S100000x64, .f32⟩
  | 66 => ⟨S3200000x1, .i32⟩
  | 67 => ⟨S100000x64, .f32⟩
  | 68 => ⟨S100000x1, .f32⟩
  | 69 => ⟨S1x64, .f32⟩
  | 70 => ⟨S100000x64, .f32⟩
  | 71 => ⟨S100000x64, .f32⟩
  | 72 => ⟨S_, .f32⟩
  | 73 => ⟨S3200000, .f32⟩
  | 74 => ⟨S_, .f32⟩
  | 75 => ⟨S100000, .f32⟩
  | 76 => ⟨S3200000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000, .f32⟩
  | 100 => ⟨S3200000, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x64, .f32⟩
  | 110 => ⟨S3200000x1, .f32⟩
  | 111 => ⟨S3200000x64, .f32⟩
  | 112 => ⟨S3200000x64, .f32⟩
  | 113 => ⟨S_, .f32⟩
  | 114 => ⟨S100000x64, .f32⟩
  | 115 => ⟨S3200000x1, .i32⟩
  | 116 => ⟨S100000x64, .f32⟩
  | 117 => ⟨S100000x1, .f32⟩
  | 118 => ⟨S1x64, .f32⟩
  | 119 => ⟨S100000x64, .f32⟩
  | 120 => ⟨S1x32, .f32⟩
  | 121 => ⟨S1x1, .f32⟩
  | 122 => ⟨S1x32, .f32⟩
  | 123 => ⟨S1x1, .f32⟩
  | 124 => ⟨S1x32, .f32⟩
  | 125 => ⟨S1x1, .f32⟩
  | 126 => ⟨S100000x3, .f32⟩
  | 127 => ⟨S100000x1, .f32⟩
  | _ => ⟨S100000x128, .f32⟩

abbrev hbmTy0_1 (i : Nat) : BufTy := match i % 128 with
  | 0 => ⟨S100000x1, .f32⟩
  | 1 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x32, .f32⟩
  | .local _ .vmem, ⟨31, _⟩ => ⟨S1x32, .f32⟩
  | .local _ .vmem, ⟨32, _⟩ => ⟨S32x1, .f32⟩
  | .local _ .vmem, ⟨33, _⟩ => ⟨S1x1, .f32⟩
  | .local _ .vmem, ⟨34, _⟩ => ⟨S64x32, .f32⟩
  | .local _ .vmem, ⟨35, _⟩ => ⟨S1x32, .f32⟩
  | .local _ .vmem, ⟨36, _⟩ => ⟨S32x1, .f32⟩
  | .local _ .vmem, ⟨37, _⟩ => ⟨S1x1, .f32⟩
  | .local _ .vmem, ⟨38, _⟩ => ⟨S64x32, .f32⟩
  | .local _ .vmem, ⟨39, _⟩ => ⟨S1x32, .f32⟩
  | .local _ .vmem, ⟨40, _⟩ => ⟨S32x1, .f32⟩
  | .local _ .vmem, ⟨41, _⟩ => ⟨S1x1, .f32⟩
  | .local _ .vmem, ⟨42, _⟩ => ⟨S10000x3, .f32⟩
  | .local _ .vmem, ⟨43, _⟩ => ⟨S10000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_c_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_13 : Ref sig .tc := ⟨.hbm, 91, rfl⟩
abbrev main_v58 : Ref sig .tc := ⟨.hbm, 92, rfl⟩
abbrev main_v59 : Ref sig .tc := ⟨.hbm, 93, rfl⟩
abbrev main_c_14 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_15 : Ref sig .tc := ⟨.hbm, 101, rfl⟩
abbrev main_v66 : Ref sig .tc := ⟨.hbm, 102, rfl⟩
abbrev main_v67 : Ref sig .tc := ⟨.hbm, 103, rfl⟩
abbrev main_c_16 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg7_0 : Ref sig .tc := ⟨.vmem, 36, rfl⟩
abbrev cc4_stg8_0 : Ref sig .tc := ⟨.vmem, 37, rfl⟩
abbrev cc4_stg9_0 : Ref sig .tc := ⟨.vmem, 38, rfl⟩
abbrev cc4_stg10_0 : Ref sig .tc := ⟨.vmem, 39, rfl⟩
abbrev cc4_stg11_0 : Ref sig .tc := ⟨.vmem, 40, rfl⟩
abbrev cc4_stg12_0 : Ref sig .tc := ⟨.vmem, 41, rfl⟩
abbrev cc4_stg13_0 : Ref sig .tc := ⟨.vmem, 42, rfl⟩
abbrev cc4_stg13_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem7_0 : DmaSem sig := 36
abbrev cc4_sem8_0 : DmaSem sig := 37
abbrev cc4_sem9_0 : DmaSem sig := 38
abbrev cc4_sem10_0 : DmaSem sig := 39
abbrev cc4_sem11_0 : DmaSem sig := 40
abbrev cc4_sem12_0 : DmaSem sig := 41
abbrev cc4_sem13_0 : DmaSem sig := 42
abbrev cc4_sem13_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S32x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x32 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x32 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S32x1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x1 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S10000x3 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  concatenates_S10000x1_S10000x1_S10000x1_S10000x3_d1 : Shape.Concatenates [S10000x1, S10000x1, S10000x1] S10000x3 1
  inb_S10000x3_S10000x3_0_0 : ∀ a, (![0, 0] : Fin 2 → Nat) a + S10000x3.size a ≤ S10000x3.size a
  h_S10000x3 : 0 < S10000x3.numel
  slices_S100000x3_S100000x1_0_0 : S100000x3.Slices ![0, 0] S100000x1
  slices_S100000x3_S100000x1_0_1 : S100000x3.Slices ![0, 1] S100000x1
  slices_S100000x3_S100000x1_0_2 : S100000x3.Slices ![0, 2] S100000x1
  dot_S10000x128_S128x64_S10000x64_1_0_0_1_n_n_wf : DotDims.WF S10000x128 S128x64 S10000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x1.size a ≤ S32x1.size a
  hwx4_3 : ∀ i : grid4.Coords, EltTy.bits .f32 = 32 ∨ (Rect.block (s := S32x1) S32x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x32.size a ≤ S64x32.size a
  hwx4_5 : ∀ i : grid4.Coords, EltTy.bits .f32 = 32 ∨ (Rect.block (s := S64x32) S64x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S32x1.size a ≤ S32x1.size a
  hwx4_7 : ∀ i : grid4.Coords, EltTy.bits .f32 = 32 ∨ (Rect.block (s := S32x1) S32x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x32.size a ≤ S64x32.size a
  hwx4_9 : ∀ i : grid4.Coords, EltTy.bits .f32 = 32 ∨ (Rect.block (s := S64x32) S64x32.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x32.size a ≤ S1x32.size a
  hwx4_10 : ∀ i : grid4.Coords, EltTy.bits .f32 = 32 ∨ (Rect.block (s := S1x32) S1x32.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S32x1.size a ≤ S32x1.size a
  hwx4_11 : ∀ i : grid4.Coords, EltTy.bits .f32 = 32 ∨ (Rect.block (s := S32x1) S32x1.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x1.size a ≤ S1x1.size a
  hwx4_12 : ∀ i : grid4.Coords, EltTy.bits .f32 = 32 ∨ (Rect.block (s := S1x1) S1x1.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S10000x3.size a ≤ S100000x3.size a
  hwx4_13 : ∀ i : grid4.Coords, EltTy.bits .f32 = 32 ∨ (Rect.block (s := S100000x3) S10000x3.size (cc4_transform_13 i) (hinb4_13 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v81) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S32x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg10) S64x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v84) S1x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg12) S32x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v85) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg14) S64x32.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v86) S1x32.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg16) S32x1.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v87) S1x1.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v88) S10000x3.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S32x1, .f32⟩
  | 9 => ⟨S1, .f32⟩
  | 10 => ⟨S64x32, .f32⟩
  | 11 => ⟨S32, .f32⟩
  | 12 => ⟨S32x1, .f32⟩
  | 13 => ⟨S1, .f32⟩
  | 14 => ⟨S64x32, .f32⟩
  | 15 => ⟨S32, .f32⟩
  | 16 => ⟨S32x1, .f32⟩
  | 17 => ⟨S1, .f32⟩
  | 18 => ⟨S1x3200000, .i32⟩
  | 19 => ⟨S3200000, .i32⟩
  | 20 => ⟨S1x3200000, .i32⟩
  | 21 => ⟨S3200000, .i32⟩
  | 22 => ⟨S100000x64, .f32⟩
  | 23 => ⟨S_, .f32⟩
  | 24 => ⟨S3200000, .f32⟩
  | 25 => ⟨S_, .f32⟩
  | 26 => ⟨S100000, .f32⟩
  | 27 => ⟨S3200000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x64, .f32⟩
  | 61 => ⟨S3200000x1, .f32⟩
  | 62 => ⟨S3200000x64, .f32⟩
  | 63 => ⟨S3200000x64, .f32⟩
  | 64 => ⟨S_, .f32⟩
  | 65 => ⟨S100000x64, .f32⟩
  | 66 => ⟨S3200000x1, .i32⟩
  | 67 => ⟨S100000x64, .f32⟩
  | 68 => ⟨S100000, .f32⟩
  | 69 => ⟨S100000x1, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .f32⟩
  | 81 => ⟨S3200000, .f32⟩
  | 82 => ⟨S_, .f32⟩
  | 83 => ⟨S100000, .f32⟩
  | 84 => ⟨S3200000x1, .i32⟩
  | 85 => ⟨S100000, .f32⟩
  | 86 => ⟨S_, .f32⟩
  | 87 => ⟨S100000, .f32⟩
  | 88 => ⟨S100000, .f32⟩
  | 89 => ⟨S100000, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000, .f32⟩
  | 108 => ⟨S3200000, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S3200000x64, .f32⟩
  | 118 => ⟨S3200000x1, .f32⟩
  | 119 => ⟨S3200000x64, .f32⟩
  | 120 => ⟨S3200000x64, .f32⟩
  | 121 => ⟨S_, .f32⟩
  | 122 => ⟨S100000x64, .f32⟩
  | 123 => ⟨S3200000x1, .i32⟩
  | 124 => ⟨S100000x64, .f32⟩
  | 125 => ⟨S100000, .f32⟩
  | 126 => ⟨S100000x1, .f32⟩
  | 127 => ⟨S100000x64, .f32⟩
  | _ => ⟨S100000x128, .f32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x32, .f32⟩
  | 9 => ⟨S1x32, .f32⟩
  | 10 => ⟨S100000x32, .f32⟩
  | 11 => ⟨S100000x32, .f32⟩
  | 12 => ⟨S_, .f32⟩
  | 13 => ⟨S100000x32, .f32⟩
  | 14 => ⟨S100000x32, .f32⟩
  | 15 => ⟨S100000x1, .f32⟩
  | 16 => ⟨S1x1, .f32⟩
  | 17 => ⟨S100000x1, .f32⟩
  | 18 => ⟨S100000x1, .f32⟩
  | 19 => ⟨S100000x1, .f32⟩
  | 20 => ⟨S100000x1, .f32⟩
  | 21 => ⟨S_, .f32⟩
  | 22 => ⟨S100000x1, .f32⟩
  | 23 => ⟨S100000x1, .f32⟩
  | 24 => ⟨S_, .f32⟩
  | 25 => ⟨S100000x1, .f32⟩
  | 26 => ⟨S100000x1, .f32⟩
  | 27 => ⟨S100000x32, .f32⟩
  | 28 => ⟨S1x32, .f32⟩
  | 29 => ⟨S100000x32, .f32⟩
  | 30 => ⟨S100000x32, .f32⟩
  | 31 => ⟨S_, .f32⟩
  | 32 => ⟨S100000x32, .f32⟩
  | 33 => ⟨S100000x32, .f32⟩
  | 34 => ⟨S100000x1, .f32⟩
  | 35 => ⟨S1x1, .f32⟩
  | 36 => ⟨S100000x1, .f32⟩
  | 37 => ⟨S100000x1, .f32⟩
  | 38 => ⟨S100000x1, .f32⟩
  | 39 => ⟨S100000x1, .f32⟩
  | 40 => ⟨S_, .f32⟩
  | 41 => ⟨S100000x1, .f32⟩
  | 42 => ⟨S100000x1, .f32⟩
  | 43 => ⟨S_, .f32⟩
  | 44 => ⟨S100000x1, .f32⟩
  | 45 => ⟨S100000x1, .f32⟩
  | 46 => ⟨S100000x32, .f32⟩
  | 47 => ⟨S1x32, .f32⟩
  | 48 => ⟨S100000x32, .f32⟩
  | 49 => ⟨S100000x32, .f32⟩
  | 50 => ⟨S_, .f32⟩
  | 51 => ⟨S100000x32, .f32⟩
  | 52 => ⟨S100000x32, .f32⟩
  | 53 => ⟨S100000x1, .f32⟩
  | 54 => ⟨S1x1, .f32⟩
  | 55 => ⟨S100000x1, .f32⟩
  | 56 => ⟨S100000x1, .f32⟩
  | 57 => ⟨S100000x1, .f32⟩
  | 58 => ⟨S100000x1, .f32⟩
  | 59 => ⟨S_, .f32⟩
  | 60 => ⟨S100000x1, .f32⟩
  | 61 => ⟨S100000x1, .f32⟩
  | 62 => ⟨S_, .f32⟩
  | 63 => ⟨S100000x1, .f32⟩
  | 64 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_v0 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_c_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_13 : Ref sig .tc := ⟨.hbm, 99, rfl⟩
abbrev main_v64 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_15 : Ref sig .tc := ⟨.hbm, 109, rfl⟩
abbrev main_v72 : Ref sig .tc := ⟨.hbm, 110, rfl⟩
abbrev main_v73 : Ref sig .tc := ⟨.hbm, 111, rfl⟩
abbrev main_c_16 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call1_cst : Ref sig .tc := ⟨.hbm, 133, rfl⟩
abbrev main_call1_v0 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_call2_cst : Ref sig .tc := ⟨.hbm, 140, rfl⟩
abbrev main_call2_v0 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_18 : Ref sig .tc := ⟨.hbm, 149, rfl⟩
abbrev main_v105 : Ref sig .tc := ⟨.hbm, 150, rfl⟩
abbrev main_v106 : Ref sig .tc := ⟨.hbm, 151, rfl⟩
abbrev main_cst_19 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_call3_cst : Ref sig .tc := ⟨.hbm, 159, rfl⟩
abbrev main_call3_v0 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_20 : Ref sig .tc := ⟨.hbm, 168, rfl⟩
abbrev main_v120 : Ref sig .tc := ⟨.hbm, 169, rfl⟩
abbrev main_v121 : Ref sig .tc := ⟨.hbm, 170, rfl⟩
abbrev main_cst_21 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_call4_cst : Ref sig .tc := ⟨.hbm, 178, rfl⟩
abbrev main_call4_v0 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_22 : Ref sig .tc := ⟨.hbm, 187, rfl⟩
abbrev main_v135 : Ref sig .tc := ⟨.hbm, 188, rfl⟩
abbrev main_v136 : Ref sig .tc := ⟨.hbm, 189, rfl⟩
abbrev main_cst_23 : Ref sig .tc := ⟨.hbm, 190, rfl⟩
abbrev main_v137 : Ref sig .tc := ⟨.hbm, 191, rfl⟩
abbrev main_v138 : Ref sig .tc := ⟨.hbm, 192, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  The five dense pieces of a two-layer graph convolution with three read-out heads, each as ONE function of whole
  arrays, entry by entry, over the extended reals.

  * a feature product: entry (n, q) of x · W is the plain sum over k of x (n, k) * W (k, q);
  * one normalised layer after aggregation: with agg the summed neighbour messages, xw the node's own product row,
    d the column of inverse square-root degrees and b the bias row, entry (n, q) is
    max ((agg (n, q) + xw (n, q) * (d n * d n)) + b q) 0 — the self-loop enters with weight d n squared;
  * one read-out head: a hidden layer max (h · Wa + ba) 0 of 32 units, one output unit (· Wb + bb), and the logistic
    function 1 / (1 + exp (-z)) of it;
  * the three heads side by side as the three columns of one array.
-/
import Idealize.ShloMosaic.Lib.ValueIdx
import Idealize.ShloMosaic.PureOps.Ideal.Laws

noncomputable section

open scoped BigOperators

namespace Cert.Gcn

open Idealize.ShloMosaic Idealize.ShloMosaic.ValueIdx

/-- Entry (n, q) of the product of an [N, K] array with a [K, Q] array. -/
def mmOut {N K Q : Nat} (x : FVec Ideal ⟨2, ![N, K]⟩ .f32) (W : FVec Ideal ⟨2, ![K, Q]⟩ .f32) :
    FVec Ideal ⟨2, ![N, Q]⟩ .f32 :=
  fun i => ∑ k : Fin K, x (ix2 (i 0) k) * W (ix2 k (i 1))

theorem mmOut_apply {N K Q : Nat} (x : FVec Ideal ⟨2, ![N, K]⟩ .f32) (W : FVec Ideal ⟨2, ![K, Q]⟩ .f32)
    (n : Fin N) (q : Fin Q) : mmOut x W (ix2 n q) = ∑ k : Fin K, x (ix2 n k) * W (ix2 k q) := rfl

/-- Entry (n, q) of a layer's output from the aggregate, the node's own product, the degree column [N, 1] and the
    bias row [1, Q]. -/
def layerOut {N Q : Nat} (agg xw : FVec Ideal ⟨2, ![N, Q]⟩ .f32) (d : FVec Ideal ⟨2, ![N, 1]⟩ .f32)
    (b : FVec Ideal ⟨2, ![1, Q]⟩ .f32) : FVec Ideal ⟨2, ![N, Q]⟩ .f32 :=
  fun i => max ((agg i + xw i * (d (ix2 (i 0) (0 : Fin 1)) * d (ix2 (i 0) (0 : Fin 1)))) + b (ix2 (0 : Fin 1) (i 1)))
    (Ideal.ofBits .f32 0x00000000#32)

theorem layerOut_apply {N Q : Nat} (agg xw : FVec Ideal ⟨2, ![N, Q]⟩ .f32) (d : FVec Ideal ⟨2, ![N, 1]⟩ .f32)
    (b : FVec Ideal ⟨2, ![1, Q]⟩ .f32) (n : Fin N) (q : Fin Q) :
    layerOut agg xw d b (ix2 n q)
      = max ((agg (ix2 n q) + xw (ix2 n q) * (d (ix2 n (0 : Fin 1)) * d (ix2 n (0 : Fin 1)))) + b (ix2 (0 : Fin 1) q))
          (Ideal.ofBits .f32 0x00000000#32) := rfl

/-- One head at node n: hidden units j = max (Σ k, h (n, k) * Wa (k, j) + ba j) 0, then the logistic function of
    Σ j, hidden j * Wb (j, 0) + bb. -/
def headOne {N H J : Nat} (h : FVec Ideal ⟨2, ![N, H]⟩ .f32) (Wa : FVec Ideal ⟨2, ![H, J]⟩ .f32)
    (ba : FVec Ideal ⟨2, ![1, J]⟩ .f32) (Wb : FVec Ideal ⟨2, ![J, 1]⟩ .f32) (bb : FVec Ideal ⟨2, ![1, 1]⟩ .f32)
    (n : Fin N) : EReal :=
  Ideal.logistic ((∑ j : Fin J,
      max ((∑ k : Fin H, h (ix2 n k) * Wa (ix2 k j)) + ba (ix2 (0 : Fin 1) j)) (Ideal.ofBits .f32 0x00000000#32)
        * Wb (ix2 j (0 : Fin 1)))
    + bb (ix2 (0 : Fin 1) (0 : Fin 1)))

/-- The three heads as the columns 0, 1, 2 of one [N, 3] array. -/
def headsOut {N H J : Nat} (h : FVec Ideal ⟨2, ![N, H]⟩ .f32)
    (Wd1 : FVec Ideal ⟨2, ![H, J]⟩ .f32) (bd1 : FVec Ideal ⟨2, ![1, J]⟩ .f32)
    (Wd2 : FVec Ideal ⟨2, ![J, 1]⟩ .f32) (bd2 : FVec Ideal ⟨2, ![1, 1]⟩ .f32)
    (Wi1 : FVec Ideal ⟨2, ![H, J]⟩ .f32) (bi1 : FVec Ideal ⟨2, ![1, J]⟩ .f32)
    (Wi2 : FVec Ideal ⟨2, ![J, 1]⟩ .f32) (bi2 : FVec Ideal ⟨2, ![1, 1]⟩ .f32)
    (Wc1 : FVec Ideal ⟨2, ![H, J]⟩ .f32) (bc1 : FVec Ideal ⟨2, ![1, J]⟩ .f32)
    (Wc2 : FVec Ideal ⟨2, ![J, 1]⟩ .f32) (bc2 : FVec Ideal ⟨2, ![1, 1]⟩ .f32) :
    FVec Ideal ⟨2, ![N, 3]⟩ .f32 :=
  fun i => if (i 1).val = 0 then headOne h Wd1 bd1 Wd2 bd2 (i 0)
    else if (i 1).val = 1 then headOne h Wi1 bi1 Wi2 bi2 (i 0)
    else headOne h Wc1 bc1 Wc2 bc2 (i 0)

end Cert.Gcn

end
-- ==== Proof.LibColumn.lean ====
/-
  A vector laid out as a column, read at an index.

  An [a] array reshaped to [a, 1] reads, at (i, u), the operand at i, whatever the unit coordinate u: both indices have
  the same position in row-major order.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.Bridge.lean ====
/-
  The reference, stage by stage, computes the specification's functions.

  * its two feature products (dot_general contracting the rows' features with the weights' first axis) are the plain
    sums over k;
  * each layer — the aggregate plus the node's own product times the squared inverse square-root degree (a vector,
    broadcast along the features), plus the bias (a vector, broadcast along the nodes), clamped at zero — is the
    layer function, the degree vector read as a column and the bias as a row;
  * each head — product, bias, clamp at zero, product, bias, then 1 / (1 + exp (-z)) spelt out in negate, exponential,
    add and divide — is the head function: over the extended reals 1 / (1 + exp (-z)) IS the logistic function.
-/
import proofs.«177190_j81853486727232_1_alg».proof.Proof.Gen.ReferenceIdeal.Read
import proofs.«177190_j81853486727232_1_alg».proof.Proof.Spec
import proofs.«177190_j81853486727232_1_alg».proof.Proof.LibColumn
import Idealize.ShloMosaic.Lib.ValueLayout
import Idealize.ShloMosaic.Lib.IdealHost

set_option maxRecDepth 16384

noncomputable section

open scoped BigOperators

namespace Cert.Gcn.Bridge

open Idealize.ShloMosaic Idealize.ShloMosaic.ValueIdx Cert.ReferenceIdeal Cert.ReferenceIdeal.Read

/-- The first feature product. -/
theorem mm1_eq (x0 : (⟨S100000x128, .f32⟩ : BufTy).Contents (Elt Ideal)) (x2 : (⟨S128x64, .f32⟩ : BufTy).Contents (Elt Ideal)) :
    (Cert.Gcn.mmOut (N := 100000) (K := 128) (Q := 64) x0 x2 : S100000x64.Idx → Ideal .f32)
      = val_main_v4 (F := Ideal) x0 x2 := by
  funext i
  obtain ⟨n, q, rfl⟩ : ∃ (n : Fin 100000) (q : Fin 64), i = ix2 n q := ⟨i 0, i 1, eq_ix2 i⟩
  rw [val_main_v4_apply, Cert.Gcn.mmOut_apply]
  refine Finset.sum_congr rfl fun k _ => ?_
  have e1 : lidx_main_v4 (ix2 n q) k = ix2 n k := funext fun a => Fin.ext (by match a with | ⟨0, _⟩ => rfl | ⟨1, _⟩ => rfl)
  have e2 : ridx_main_v4 (ix2 n q) k = ix2 k q := funext fun a => Fin.ext (by match a with | ⟨0, _⟩ => rfl | ⟨1, _⟩ => rfl)
  rw [e1, e2]

/-- The first layer. -/
theorem layer1_eq (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (hd : S100000.ShapeCasts S100000x1) (hb : S64.ShapeCasts S1x64) :
    (Cert.Gcn.layerOut (N := 100000) (Q := 64) (val_main_v39 (F := Ideal) x0 x1 x2) (val_main_v4 (F := Ideal) x0 x2)
        (shapeCast S100000x1 (val_main_v11 (F := Ideal) x1) hd) (shapeCast S1x64 x3 hb) : S100000x64.Idx → Ideal .f32)
      = val_main_v48 (F := Ideal) x0 x1 x2 x3 := by
  funext i
  obtain ⟨n, q, rfl⟩ : ∃ (n : Fin 100000) (q : Fin 64), i = ix2 n q := ⟨i 0, i 1, eq_ix2 i⟩
  have ed : idx_main_v41 (idx_main_v42 (ix2 n q)) = ix1 n := funext fun a => Fin.ext (by match a with | ⟨0, _⟩ => rfl)
  have eb : idx_main_v45 (idx_main_v46 (ix2 n q)) = ix1 q := funext fun a => Fin.ext (by match a with | ⟨0, _⟩ => rfl)
  rw [Cert.Gcn.layerOut_apply, val_main_v48_apply, val_main_v47_apply, val_main_v44_apply, val_main_v43_apply,
    val_main_v42_apply, val_main_v41_apply, val_main_v40_apply, val_main_v46_apply, val_main_v45_apply,
    val_main_call0_v0_apply, val_main_call0_cst_apply, ed, eb, shapeCast_a_a1_apply, shapeCast_a_1a_apply]
  rfl

/-- The second feature product, of the first layer's output. -/
theorem mm2_eq (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    (Cert.Gcn.mmOut (N := 100000) (K := 64) (Q := 64) (val_main_v48 (F := Ideal) x0 x1 x2 x3) x4 : S100000x64.Idx → Ideal .f32)
      = val_main_v49 (F := Ideal) x0 x1 x2 x3 x4 := by
  funext i
  obtain ⟨n, q, rfl⟩ : ∃ (n : Fin 100000) (q : Fin 64), i = ix2 n q := ⟨i 0, i 1, eq_ix2 i⟩
  rw [val_main_v49_apply, Cert.Gcn.mmOut_apply]
  refine Finset.sum_congr rfl fun k _ => ?_
  have e1 : lidx_main_v49 (ix2 n q) k = ix2 n k := funext fun a => Fin.ext (by match a with | ⟨0, _⟩ => rfl | ⟨1, _⟩ => rfl)
  have e2 : ridx_main_v49 (ix2 n q) k = ix2 k q := funext fun a => Fin.ext (by match a with | ⟨0, _⟩ => rfl | ⟨1, _⟩ => rfl)
  rw [e1, e2]

/-- The second layer. -/
theorem layer2_eq (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (hd : S100000.ShapeCasts S100000x1) (hb : S64.ShapeCasts S1x64) :
    (Cert.Gcn.layerOut (N := 100000) (Q := 64) (val_main_v84 (F := Ideal) x0 x1 x2 x3 x4) (val_main_v49 (F := Ideal) x0 x1 x2 x3 x4)
        (shapeCast S100000x1 (val_main_v56 (F := Ideal) x1) hd) (shapeCast S1x64 x5 hb) : S100000x64.Idx → Ideal .f32)
      = val_main_v93 (F := Ideal) x0 x1 x2 x3 x4 x5 := by
  funext i
  obtain ⟨n, q, rfl⟩ : ∃ (n : Fin 100000) (q : Fin 64), i = ix2 n q := ⟨i 0, i 1, eq_ix2 i⟩
  have ed : idx_main_v86 (idx_main_v87 (ix2 n q)) = ix1 n := funext fun a => Fin.ext (by match a with | ⟨0, _⟩ => rfl)
  have eb : idx_main_v90 (idx_main_v91 (ix2 n q)) = ix1 q := funext fun a => Fin.ext (by match a with | ⟨0, _⟩ => rfl)
  rw [Cert.Gcn.layerOut_apply, val_main_v93_apply, val_main_v92_apply, val_main_v89_apply, val_main_v88_apply,
    val_main_v87_apply, val_main_v86_apply, val_main_v85_apply, val_main_v91_apply, val_main_v90_apply,
    val_main_call1_v0_apply, val_main_call1_cst_apply, ed, eb, shapeCast_a_a1_apply, shapeCast_a_1a_apply]
  rfl

/-- The first head. -/
theorem head_d_eq (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S32x1, .f32⟩ : BufTy).Contents (Elt Ideal)) (x9 : (⟨S1, .f32⟩ : BufTy).Contents (Elt Ideal)) (hba : S32.ShapeCasts S1x32) (hbb : S1.ShapeCasts S1x1) (n : Fin 100000) :
    Cert.Gcn.headOne (N := 100000) (H := 64) (J := 32) (val_main_v93 (F := Ideal) x0 x1 x2 x3 x4 x5) x6 (shapeCast S1x32 x7 hba) x8 (shapeCast S1x1 x9 hbb) n
      = val_main_v108 (F := Ideal) x0 x1 x2 x3 x4 x5 x6 x7 x8 x9 (ix2 n (0 : Fin 1)) := by
  have hsum : (∑ j : Fin 32, max ((∑ k : Fin 64, (val_main_v93 (F := Ideal) x0 x1 x2 x3 x4 x5) (ix2 n k) * x6 (ix2 k j)) + shapeCast S1x32 x7 hba (ix2 (0 : Fin 1) j))
        (Ideal.ofBits .f32 0x00000000#32) * x8 (ix2 j (0 : Fin 1)))
      = val_main_v99 (F := Ideal) x0 x1 x2 x3 x4 x5 x6 x7 x8 (ix2 n (0 : Fin 1)) := by
    rw [val_main_v99_apply]
    refine Finset.sum_congr rfl fun j _ => ?_
    have e1 : lidx_main_v99 (ix2 n (0 : Fin 1)) j = ix2 n j := funext fun a => Fin.ext (by match a with | ⟨0, _⟩ => rfl | ⟨1, _⟩ => rfl)
    have e2 : ridx_main_v99 (ix2 n (0 : Fin 1)) j = ix2 j (0 : Fin 1) := funext fun a => Fin.ext (by match a with | ⟨0, _⟩ => rfl | ⟨1, _⟩ => rfl)
    have e3 : idx_main_v95 (idx_main_v96 (ix2 n j)) = ix1 j := funext fun a => Fin.ext (by match a with | ⟨0, _⟩ => rfl)
    have e4 : ∀ k : Fin 64, lidx_main_v94 (ix2 n j) k = ix2 n k := fun k => funext fun a => Fin.ext (by match a with | ⟨0, _⟩ => rfl | ⟨1, _⟩ => rfl)
    have e5 : ∀ k : Fin 64, ridx_main_v94 (ix2 n j) k = ix2 k j := fun k => funext fun a => Fin.ext (by match a with | ⟨0, _⟩ => rfl | ⟨1, _⟩ => rfl)
    rw [e1, e2, val_main_v98_apply, val_main_v97_apply, val_main_v94_apply, val_main_v96_apply, val_main_v95_apply, val_main_call2_v0_apply,
      val_main_call2_cst_apply, e3, shapeCast_a_1a_apply]
    simp only [e4, e5]
    rfl
  have e6 : idx_main_v100 (idx_main_v101 (ix2 n (0 : Fin 1))) = ix1 (0 : Fin 1) := funext fun a => Fin.ext (by match a with | ⟨0, _⟩ => rfl)
  unfold Cert.Gcn.headOne
  rw [hsum, shapeCast_a_1a_apply, val_main_v108_apply, val_main_v107_apply, val_main_cst_19_apply, val_main_v106_apply, val_main_v105_apply,
    val_main_cst_18_apply, val_main_v104_apply, val_main_v103_apply, val_main_v102_apply, val_main_v101_apply, val_main_v100_apply, e6]
  simp only [Ideal.hostDivf_def, Ideal.addf_def, Ideal.hostUnary_exp_def, Ideal.hostNegf_def, Ideal.negf_def, Ideal.ofBits_def,
    Ideal.ofBits_one_f32]
  rfl

/-- The second head. -/
theorem head_i_eq (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x10 : (⟨S64x32, .f32⟩ : BufTy).Contents (Elt Ideal)) (x11 : (⟨S32, .f32⟩ : BufTy).Contents (Elt Ideal)) (x12 : (⟨S32x1, .f32⟩ : BufTy).Contents (Elt Ideal)) (x13 : (⟨S1, .f32⟩ : BufTy).Contents (Elt Ideal)) (hba : S32.ShapeCasts S1x32) (hbb : S1.ShapeCasts S1x1) (n : Fin 100000) :
    Cert.Gcn.headOne (N := 100000) (H := 64) (J := 32) (val_main_v93 (F := Ideal) x0 x1 x2 x3 x4 x5) x10 (shapeCast S1x32 x11 hba) x12 (shapeCast S1x1 x13 hbb) n
      = val_main_v123 (F := Ideal) x0 x1 x2 x3 x4 x5 x10 x11 x12 x13 (ix2 n (0 : Fin 1)) := by
  have hsum : (∑ j : Fin 32, max ((∑ k : Fin 64, (val_main_v93 (F := Ideal) x0 x1 x2 x3 x4 x5) (ix2 n k) * x10 (ix2 k j)) + shapeCast S1x32 x11 hba (ix2 (0 : Fin 1) j))
        (Ideal.ofBits .f32 0x00000000#32) * x12 (ix2 j (0 : Fin 1)))
      = val_main_v114 (F := Ideal) x0 x1 x2 x3 x4 x5 x10 x11 x12 (ix2 n (0 : Fin 1)) := by
    rw [val_main_v114_apply]
    refine Finset.sum_congr rfl fun j _ => ?_
    have e1 : lidx_main_v114 (ix2 n (0 : Fin 1)) j = ix2 n j := funext fun a => Fin.ext (by match a with | ⟨0, _⟩ => rfl | ⟨1, _⟩ => rfl)
    have e2 : ridx_main_v114 (ix2 n (0 : Fin 1)) j = ix2 j (0 : Fin 1) := funext fun a => Fin.ext (by match a with | ⟨0, _⟩ => rfl | ⟨1, _⟩ => rfl)
    have e3 : idx_main_v110 (idx_main_v111 (ix2 n j)) = ix1 j := funext fun a => Fin.ext (by match a with | ⟨0, _⟩ => rfl)
    have e4 : ∀ k : Fin 64, lidx_main_v109 (ix2 n j) k = ix2 n k := fun k => funext fun a => Fin.ext (by match a with | ⟨0, _⟩ => rfl | ⟨1, _⟩ => rfl)
    have e5 : ∀ k : Fin 64, ridx_main_v109 (ix2 n j) k = ix2 k j := fun k => funext fun a => Fin.ext (by match a with | ⟨0, _⟩ => rfl | ⟨1, _⟩ => rfl)
    rw [e1, e2, val_main_v113_apply, val_main_v112_apply, val_main_v109_apply, val_main_v111_apply, val_main_v110_apply, val_main_call3_v0_apply,
      val_main_call3_cst_apply, e3, shapeCast_a_1a_apply]
    simp only [e4, e5]
    rfl
  have e6 : idx_main_v115 (idx_main_v116 (ix2 n (0 : Fin 1))) = ix1 (0 : Fin 1) := funext fun a => Fin.ext (by match a with | ⟨0, _⟩ => rfl)
  unfold Cert.Gcn.headOne
  rw [hsum, shapeCast_a_1a_apply, val_main_v123_apply, val_main_v122_apply, val_main_cst_21_apply, val_main_v121_apply, val_main_v120_apply,
    val_main_cst_20_apply, val_main_v119_apply, val_main_v118_apply, val_main_v117_apply, val_main_v116_apply, val_main_v115_apply, e6]
  simp only [Ideal.hostDivf_def, Ideal.addf_def, Ideal.hostUnary_exp_def, Ideal.hostNegf_def, Ideal.negf_def, Ideal.ofBits_def,
    Ideal.ofBits_one_f32]
  rfl

/-- The third head. -/
theorem head_c_eq (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x14 : (⟨S64x32, .f32⟩ : BufTy).Contents (Elt Ideal)) (x15 : (⟨S32, .f32⟩ : BufTy).Contents (Elt Ideal)) (x16 : (⟨S32x1, .f32⟩ : BufTy).Contents (Elt Ideal)) (x17 : (⟨S1, .f32⟩ : BufTy).Contents (Elt Ideal)) (hba : S32.ShapeCasts S1x32) (hbb : S1.ShapeCasts S1x1) (n : Fin 100000) :
    Cert.Gcn.headOne (N := 100000) (H := 64) (J := 32) (val_main_v93 (F := Ideal) x0 x1 x2 x3 x4 x5) x14 (shapeCast S1x32 x15 hba) x16 (shapeCast S1x1 x17 hbb) n
      = val_main_v138 (F := Ideal) x0 x1 x2 x3 x4 x5 x14 x15 x16 x17 (ix2 n (0 : Fin 1)) := by
  have hsum : (∑ j : Fin 32, max ((∑ k : Fin 64, (val_main_v93 (F := Ideal) x0 x1 x2 x3 x4 x5) (ix2 n k) * x14 (ix2 k j)) + shapeCast S1x32 x15 hba (ix2 (0 : Fin 1) j))
        (Ideal.ofBits .f32 0x00000000#32) * x16 (ix2 j (0 : Fin 1)))
      = val_main_v129 (F := Ideal) x0 x1 x2 x3 x4 x5 x14 x15 x16 (ix2 n (0 : Fin 1)) := by
    rw [val_main_v129_apply]
    refine Finset.sum_congr rfl fun j _ => ?_
    have e1 : lidx_main_v129 (ix2 n (0 : Fin 1)) j = ix2 n j := funext fun a => Fin.ext (by match a with | ⟨0, _⟩ => rfl | ⟨1, _⟩ => rfl)
    have e2 : ridx_main_v129 (ix2 n (0 : Fin 1)) j = ix2 j (0 : Fin 1) := funext fun a => Fin.ext (by match a with | ⟨0, _⟩ => rfl | ⟨1, _⟩ => rfl)
    have e3 : idx_main_v125 (idx_main_v126 (ix2 n j)) = ix1 j := funext fun a => Fin.ext (by match a with | ⟨0, _⟩ => rfl)
    have e4 : ∀ k : Fin 64, lidx_main_v124 (ix2 n j) k = ix2 n k := fun k => funext fun a => Fin.ext (by match a with | ⟨0, _⟩ => rfl | ⟨1, _⟩ => rfl)
    have e5 : ∀ k : Fin 64, ridx_main_v124 (ix2 n j) k = ix2 k j := fun k => funext fun a => Fin.ext (by match a with | ⟨0, _⟩ => rfl | ⟨1, _⟩ => rfl)
    rw [e1, e2, val_main_v128_apply, val_main_v127_apply, val_main_v124_apply, val_main_v126_apply, val_main_v125_apply, val_main_call4_v0_apply,
      val_main_call4_cst_apply, e3, shapeCast_a_1a_apply]
    simp only [e4, e5]
    rfl
  have e6 : idx_main_v130 (idx_main_v131 (ix2 n (0 : Fin 1))) = ix1 (0 : Fin 1) := funext fun a => Fin.ext (by match a with | ⟨0, _⟩ => rfl)
  unfold Cert.Gcn.headOne
  rw [hsum, shapeCast_a_1a_apply, val_main_v138_apply, val_main_v137_apply, val_main_cst_23_apply, val_main_v136_apply, val_main_v135_apply,
    val_main_cst_22_apply, val_main_v134_apply, val_main_v133_apply, val_main_v132_apply, val_main_v131_apply, val_main_v130_apply, e6]
  simp only [Ideal.hostDivf_def, Ideal.addf_def, Ideal.hostUnary_exp_def, Ideal.hostNegf_def, Ideal.negf_def, Ideal.ofBits_def,
    Ideal.ofBits_one_f32]
  rfl

end Cert.Gcn.Bridge

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.Region0.lean ====
/-
  The first feature product, region by region: the kernel computes x · W1 one block of 10000 rows per grid point —
  each point multiplies its row block [10000, 128] by the whole weight matrix [128, 64] into a zero accumulator and
  writes the block [10000, 64] back — and the ten blocks tile the [100000, 64] result. Entry (n, q) of the array the
  region leaves is therefore the plain sum over k of x (n, k) * W1 (k, q): row n lies in the block of point
  n / 10000, at row n % 10000 of it, and a block's row p at point t is row 10000 t + p of x.
-/
import proofs.«177190_j81853486727232_1_alg».proof.Proof.Gen.KernelIdeal.Frame
import proofs.«177190_j81853486727232_1_alg».proof.Proof.Spec
import proofs.«177190_j81853486727232_1_alg».proof.Proof.LibDenseBlock
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The block indices over the grid: the row-blocked windows (x and the result) sit at block (t, 0), the weight
    matrix at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block of x is row 10000 t + p of x. -/
theorem xblk0_apply (c : Dev nD) (t : Fin cfg0.N) (p : Fin 10000) (k : Fin 128) (n : Fin 100000)
    (hn : n.val = 10000 * t.val + p.val) :
    (iblk0 V c 0 t : Vec Ideal S10000x128 .f32) (ix2 p k)
      = (V c main_arg0 : S100000x128.Idx → Ideal .f32) (ix2 n k) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- Every point's block of the weight matrix is the whole matrix. -/
theorem wblk0_apply (c : Dev nD) (t : Fin cfg0.N) (k : Fin 128) (q : Fin 64) :
    (iblk0 V c 1 t : Vec Ideal S128x64 .f32) (ix2 k q)
      = (V c main_arg2 : S128x64.Idx → Ideal .f32) (ix2 k q) := by
  obtain ⟨-, -, e2, e3, -⟩ := idx0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- Entry (p, q) of the result block is entry (10000 t + p, q) of the result array. -/
theorem oemb0 (t : Fin cfg0.N) (p : Fin 10000) (q : Fin 64) (n : Fin 100000)
    (hn : n.val = 10000 * t.val + p.val) :
    ((cfg0.win 2).blk t).view.emb (ix2 p q : S10000x64.Idx) = (ix2 n q : S100000x64.Idx) := by
  obtain ⟨-, -, -, -, e4, e5⟩ := idx0 t
  funext a
  apply Fin.ext
  match a with
  | ⟨0, _⟩ => show win0_2.index t (0 : Fin 2) * 10000 + 1 * p.val = n.val; rw [e4, hn]; omega
  | ⟨1, _⟩ => show win0_2.index t (1 : Fin 2) * 64 + 1 * q.val = q.val; rw [e5]; omega

/-- What the body stores, at (p, q): the plain sum over k of the row block's (p, k) times the weights' (k, q) (the
    narrowing to 16 bits before the product is the identity over the extended reals). -/
theorem pay0_apply (x : Vec Ideal S10000x128 .f32) (W : Vec Ideal S128x64 .f32) (p : Fin 10000) (q : Fin 64) :
    k0_pay1 x W (ix2 p q) = ∑ k : Fin 128, x (ix2 p k) * W (ix2 k q) := by
  unfold k0_pay1
  exact DenseBlock.matmul_zero_apply (K := 10000) (N := 128) (Q := 64) _
    (truncf .bf16 x bitsLt_bf16_f32) (truncf .bf16 W bitsLt_bf16_f32) p q

/-- What point t writes back is block t of the whole product. -/
theorem flushed0 (c : Dev nD) (t : Fin cfg0.N) :
    (dat0 (F := Ideal) V c).flushed 2 t
      = ((cfg0.win 2).blk t).view.read (Elt Ideal) (Cert.Gcn.mmOut (V c main_arg0) (V c main_arg2)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x64) hz0]
  funext j
  obtain ⟨p, q, rfl⟩ : ∃ (p : Fin 10000) (q : Fin 64), j = ix2 p q := ⟨j 0, j 1, eq_ix2 j⟩
  have hN : cfg0.N = 10 := N_0
  have ht : t.val < 10 := hN ▸ t.isLt
  let n : Fin 100000 := ⟨10000 * t.val + p.val, by have := p.isLt; omega⟩
  show k0_pay1 (iblk0 V c 0 t) (iblk0 V c 1 t) (ix2 p q)
    = Cert.Gcn.mmOut (V c main_arg0) (V c main_arg2) (((cfg0.win 2).blk t).view.emb (ix2 p q))
  rw [oemb0 t p q n rfl, pay0_apply]
  refine (Finset.sum_congr rfl fun k _ => ?_).trans (Cert.Gcn.mmOut_apply _ _ n q).symm
  rw [xblk0_apply V c t p k n rfl, wblk0_apply V c t k q]

/-- An index of the result array is in point t's block iff each coordinate is in the block's range. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v4).slice (win0_2.rect t)).set ↔ _
  rw [View.set_slice_whole, Rect.mem_set_unit]
  exact Iff.rfl

/-- The ten row blocks tile the result: row n is in the block of point n / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

/-- The array the region leaves: the whole product, entry by entry. -/
theorem region0_out (c : Dev nD) :
    (dat0 (F := Ideal) V c).arrAt 2 cfg0.N = Cert.Gcn.mmOut (V c main_arg0) (V c main_arg2) :=
  (dat0 (F := Ideal) V c).arrAt_eq_of_cover 2 _ (fun t _ => flushed0 V c t) cover0

end Cert.KernelIdeal.Hand

end
-- ==== Proof.Region2.lean ====
/-
  The second feature product, region by region: the kernel computes h · W2 (h the first layer's output) one block of 10000 rows per grid point —
  each point multiplies its row block [10000, 64] by the whole weight matrix [64, 64] into a zero accumulator and
  writes the block [10000, 64] back — and the ten blocks tile the [100000, 64] result. Entry (n, q) of the array the
  region leaves is therefore the plain sum over k of h (n, k) * W2 (k, q): row n lies in the block of point
  n / 10000, at row n % 10000 of it, and a block's row p at point t is row 10000 t + p of h.
-/
import proofs.«177190_j81853486727232_1_alg».proof.Proof.Gen.KernelIdeal.Frame
import proofs.«177190_j81853486727232_1_alg».proof.Proof.Spec
import proofs.«177190_j81853486727232_1_alg».proof.Proof.LibDenseBlock
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The block indices over the grid: the row-blocked windows (x and the result) sit at block (t, 0), the weight
    matrix at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of point t's block of x is row 10000 t + p of x. -/
theorem xblk2_apply (c : Dev nD) (t : Fin cfg2.N) (p : Fin 10000) (k : Fin 64) (n : Fin 100000)
    (hn : n.val = 10000 * t.val + p.val) :
    (iblk2 V c 0 t : Vec Ideal S10000x64 .f32) (ix2 p k)
      = (V c main_v42 : S100000x64.Idx → Ideal .f32) (ix2 n k) := by
  obtain ⟨e0, e1, -⟩ := idx2 t
  unfold iblk2
  rw [View.read_apply]
  show V c main_v42 _ = V c main_v42 _
  congr 1
  funext a
  apply Fin.ext
  match a with
  | ⟨0, _⟩ => show win2_0.index t (0 : Fin 2) * 10000 + 1 * p.val = n.val; rw [e0, hn]; omega
  | ⟨1, _⟩ => show win2_0.index t (1 : Fin 2) * 64 + 1 * k.val = k.val; rw [e1]; omega

/-- Every point's block of the weight matrix is the whole matrix. -/
theorem wblk2_apply (c : Dev nD) (t : Fin cfg2.N) (k : Fin 64) (q : Fin 64) :
    (iblk2 V c 1 t : Vec Ideal S64x64 .f32) (ix2 k q)
      = (V c main_arg4 : S64x64.Idx → Ideal .f32) (ix2 k q) := by
  obtain ⟨-, -, e2, e3, -⟩ := idx2 t
  unfold iblk2
  rw [View.read_apply]
  show V c main_arg4 _ = V c main_arg4 _
  congr 1
  funext a
  apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- Entry (p, q) of the result block is entry (10000 t + p, q) of the result array. -/
theorem oemb2 (t : Fin cfg2.N) (p : Fin 10000) (q : Fin 64) (n : Fin 100000)
    (hn : n.val = 10000 * t.val + p.val) :
    ((cfg2.win 2).blk t).view.emb (ix2 p q : S10000x64.Idx) = (ix2 n q : S100000x64.Idx) := by
  obtain ⟨-, -, -, -, e4, e5⟩ := idx2 t
  funext a
  apply Fin.ext
  match a with
  | ⟨0, _⟩ => show win2_2.index t (0 : Fin 2) * 10000 + 1 * p.val = n.val; rw [e4, hn]; omega
  | ⟨1, _⟩ => show win2_2.index t (1 : Fin 2) * 64 + 1 * q.val = q.val; rw [e5]; omega

/-- What the body stores, at (p, q): the plain sum over k of the row block's (p, k) times the weights' (k, q) (the
    narrowing to 16 bits before the product is the identity over the extended reals). -/
theorem pay2_apply (x : Vec Ideal S10000x64 .f32) (W : Vec Ideal S64x64 .f32) (p : Fin 10000) (q : Fin 64) :
    k2_pay1 x W (ix2 p q) = ∑ k : Fin 64, x (ix2 p k) * W (ix2 k q) := by
  unfold k2_pay1
  rw [shapeCast_self]
  exact DenseBlock.matmul_zero_apply (K := 10000) (N := 64) (Q := 64) _
    (truncf .bf16 x bitsLt_bf16_f32) (truncf .bf16 W bitsLt_bf16_f32) p q

/-- What point t writes back is block t of the whole product. -/
theorem flushed2 (c : Dev nD) (t : Fin cfg2.N) :
    (dat2 (F := Ideal) V c).flushed 2 t
      = ((cfg2.win 2).blk t).view.read (Elt Ideal) (Cert.Gcn.mmOut (V c main_v42) (V c main_arg4)) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S64x64) hz2]
  funext j
  obtain ⟨p, q, rfl⟩ : ∃ (p : Fin 10000) (q : Fin 64), j = ix2 p q := ⟨j 0, j 1, eq_ix2 j⟩
  have hN : cfg2.N = 10 := N_2
  have ht : t.val < 10 := hN ▸ t.isLt
  let n : Fin 100000 := ⟨10000 * t.val + p.val, by have := p.isLt; omega⟩
  show k2_pay1 (iblk2 V c 0 t) (iblk2 V c 1 t) (ix2 p q)
    = Cert.Gcn.mmOut (V c main_v42) (V c main_arg4) (((cfg2.win 2).blk t).view.emb (ix2 p q))
  rw [oemb2 t p q n rfl, pay2_apply]
  refine (Finset.sum_congr rfl fun k _ => ?_).trans (Cert.Gcn.mmOut_apply _ _ n q).symm
  rw [xblk2_apply V c t p k n rfl, wblk2_apply V c t k q]

/-- An index of the result array is in point t's block iff each coordinate is in the block's range. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v43).slice (win2_2.rect t)).set ↔ _
  rw [View.set_slice_whole, Rect.mem_set_unit]
  exact Iff.rfl

/-- The ten row blocks tile the result: row n is in the block of point n / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := idx2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 64 ≤ (i 1).val ∧ (i 1).val < win2_2.index t (1 : Fin 2) * 64 + 64
    rw [e5]; omega

/-- The array the region leaves: the whole product, entry by entry. -/
theorem region2_out (c : Dev nD) :
    (dat2 (F := Ideal) V c).arrAt 2 cfg2.N = Cert.Gcn.mmOut (V c main_v42) (V c main_arg4) :=
  (dat2 (F := Ideal) V c).arrAt_eq_of_cover 2 _ (fun t _ => flushed2 V c t) cover2

end Cert.KernelIdeal.Hand

end
-- ==== Proof.Layer1.lean ====
/-
  The first normalised layer after aggregation, as its region computes it. At every grid point the body reads a block
  of 10000 rows of the aggregate, of the node's own product and of the degree column, and the whole bias row, and stores
  max ((agg + xw * (d * d)) + b) 0 entry by entry, where d * d is the degree column squared and spread over the 64
  features and b is the bias row spread over the rows. The ten row blocks tile the [100000, 64] output, so the array
  the region leaves is the layer's formula of the four arrays it found.
-/
import proofs.«177190_j81853486727232_1_alg».proof.Proof.Gen.KernelIdeal.Frame
import proofs.«177190_j81853486727232_1_alg».proof.Proof.Spec
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (V : (c : Dev nD) → (b : Ref sig .tc) → Buf (Elt Ideal) ((c : Thread nD τ).loc b))

/-- The body loads and stores whole buffers: every offset is zero. -/
theorem layer1_zero_offsets : (![0, 0] : Fin 2 → Nat) = fun _ => 0 := funext fun a => by fin_cases a <;> rfl

/-- The block indices over the grid: the three row-blocked inputs and the output are at block (t, 0) at point t, the
    bias row at block (0, 0) at every point. -/
theorem layer1_idx : ∀ t : Fin cfg1.N,
    (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = 0 ∧ win1_3.index t 1 = 0)
    ∧ (win1_4.index t 0 = t.val ∧ win1_4.index t 1 = 0) :=
  (by decide +kernel : ∀ t : Fin grid1.N, _)

/-- An [a, 1] column spread to [a, b] reads, at (p, q), the column's entry of row p. -/
theorem layer1_bcast_col {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at (p, q), from its four loads: v0 the degree column, v2 the node's own product, v7 the
    aggregate, v10 the bias row. -/
theorem k1_pay1_apply (v0 : Vec Ideal S10000x1 .f32) (v2 v7 : Vec Ideal S10000x64 .f32) (v10 : Vec Ideal S1x64 .f32)
    (p : Fin 10000) (q : Fin 64) :
    k1_pay1 v0 v2 v7 v10 (ix2 p q)
      = max ((v7 (ix2 p q) + v2 (ix2 p q) * (v0 (ix2 p (0 : Fin 1)) * v0 (ix2 p (0 : Fin 1)))) + v10 (ix2 (0 : Fin 1) q))
          (Ideal.ofBits .f32 0x00000000#32) := by
  unfold k1_pay1
  simp only [shapeCast_self]
  rw [maximumf_apply, addf_apply, addf_apply, mulf_apply, broadcast_apply]
  rw [layer1_bcast_col, broadcastTo_1b_ab_apply, mulf_apply]
  rfl

/-- The aggregate's block at point t is rows 10000 t … 10000 t + 9999 of the aggregate. -/
theorem iblk1_0_apply (c : Dev nD) (t : Fin cfg1.N) (x : S10000x64.Idx) (k : S100000x64.Idx)
    (hk0 : (k 0).val = 10000 * t.val + (x 0).val) (hk1 : (k 1).val = (x 1).val) :
    (iblk1 V c 0 t : Vec Ideal S10000x64 .f32) x = (V c main_v39 : S100000x64.Idx → Elt Ideal .f32) k := by
  have hi := (layer1_idx t).1
  unfold iblk1
  rw [View.read_apply]
  show V c main_v39 _ = V c main_v39 _
  congr 1
  funext a
  apply Fin.ext
  match a with
  | ⟨0, _⟩ => show win1_0.index t 0 * 10000 + 1 * (x 0).val = (k 0).val; rw [hi.1, hk0]; omega
  | ⟨1, _⟩ => show win1_0.index t 1 * 64 + 1 * (x 1).val = (k 1).val; rw [hi.2, hk1]; omega

/-- The block of the node's own product: the same rows. -/
theorem iblk1_1_apply (c : Dev nD) (t : Fin cfg1.N) (x : S10000x64.Idx) (k : S100000x64.Idx)
    (hk0 : (k 0).val = 10000 * t.val + (x 0).val) (hk1 : (k 1).val = (x 1).val) :
    (iblk1 V c 1 t : Vec Ideal S10000x64 .f32) x = (V c main_v4 : S100000x64.Idx → Elt Ideal .f32) k := by
  have hi := (layer1_idx t).2.1
  unfold iblk1
  rw [View.read_apply]
  show V c main_v4 _ = V c main_v4 _
  congr 1
  funext a
  apply Fin.ext
  match a with
  | ⟨0, _⟩ => show win1_1.index t 0 * 10000 + 1 * (x 0).val = (k 0).val; rw [hi.1, hk0]; omega
  | ⟨1, _⟩ => show win1_1.index t 1 * 64 + 1 * (x 1).val = (k 1).val; rw [hi.2, hk1]; omega

/-- The degree column's block: the same rows of a one-column array. -/
theorem iblk1_2_apply (c : Dev nD) (t : Fin cfg1.N) (x : S10000x1.Idx) (k : S100000x1.Idx)
    (hk0 : (k 0).val = 10000 * t.val + (x 0).val) (hk1 : (k 1).val = (x 1).val) :
    (iblk1 V c 2 t : Vec Ideal S10000x1 .f32) x = (V c main_v40 : S100000x1.Idx → Elt Ideal .f32) k := by
  have hi := (layer1_idx t).2.2.1
  unfold iblk1
  rw [View.read_apply]
  show V c main_v40 _ = V c main_v40 _
  congr 1
  funext a
  apply Fin.ext
  match a with
  | ⟨0, _⟩ => show win1_2.index t 0 * 10000 + 1 * (x 0).val = (k 0).val; rw [hi.1, hk0]; omega
  | ⟨1, _⟩ => show win1_2.index t 1 * 1 + 1 * (x 1).val = (k 1).val; rw [hi.2, hk1]; omega

/-- The bias row's block is the whole one-row array at every point. -/
theorem iblk1_3_apply (c : Dev nD) (t : Fin cfg1.N) (x : S1x64.Idx) :
    (iblk1 V c 3 t : Vec Ideal S1x64 .f32) x = (V c main_v41 : S1x64.Idx → Elt Ideal .f32) x := by
  have hi := (layer1_idx t).2.2.2.1
  unfold iblk1
  rw [View.read_apply]
  show V c main_v41 _ = V c main_v41 _
  congr 1
  funext a
  apply Fin.ext
  match a with
  | ⟨0, _⟩ => show win1_3.index t 0 * 1 + 1 * (x 0).val = (x 0).val; rw [hi.1]; omega
  | ⟨1, _⟩ => show win1_3.index t 1 * 64 + 1 * (x 1).val = (x 1).val; rw [hi.2]; omega

/-- What point t writes back is block t of the layer's formula of the four arrays: entry (p, q) of the block is entry
    (10000 t + p, q) of the formula. -/
theorem layer1_flushed_eq (c : Dev nD) (t : Fin cfg1.N) :
    (dat1 (F := Ideal) V c).flushed 4 t = ((cfg1.win 4).blk t).view.read (Elt Ideal)
      (Cert.Gcn.layerOut (V c main_v39) (V c main_v4) (V c main_v40) (V c main_v41)) := by
  show (cfg1.win 4).cut (grid1.coords t) ((dat1 V c).after 4 t) = _
  rw [after1_4]
  unfold out1_4
  rw [View.canon_unit_zero layer1_zero_offsets]
  simp only [View.ld_unit_zero (S := S10000x64) layer1_zero_offsets, View.ld_unit_zero (S := S10000x1) layer1_zero_offsets,
    View.ld_unit_zero (S := S1x64) layer1_zero_offsets]
  funext j
  obtain ⟨p, q, rfl⟩ : ∃ (p : Fin 10000) (q : Fin 64), j = ix2 p q := ⟨j 0, j 1, eq_ix2 j⟩
  have hN : grid1.N = 10 := N_1
  have ht : t.val < 10 := by have h : t.val < grid1.N := t.isLt; omega
  have hp : p.val < 10000 := p.isLt
  have hr : 10000 * t.val + p.val < 100000 := by omega
  have hi4 := (layer1_idx t).2.2.2.2
  have hemb : ((cfg1.win 4).blk t).view.emb (ix2 p q)
      = (ix2 (⟨10000 * t.val + p.val, hr⟩ : Fin 100000) q : S100000x64.Idx) := by
    funext a
    apply Fin.ext
    match a with
    | ⟨0, _⟩ => show win1_4.index t 0 * 10000 + 1 * p.val = 10000 * t.val + p.val; rw [hi4.1]; omega
    | ⟨1, _⟩ => show win1_4.index t 1 * 64 + 1 * q.val = q.val; rw [hi4.2]; omega
  show k1_pay1 (iblk1 V c 2 t) (iblk1 V c 1 t) (iblk1 V c 0 t) (iblk1 V c 3 t) (ix2 p q)
    = Cert.Gcn.layerOut (V c main_v39) (V c main_v4) (V c main_v40) (V c main_v41)
        (((cfg1.win 4).blk t).view.emb (ix2 p q))
  rw [hemb, Cert.Gcn.layerOut_apply]
  refine (k1_pay1_apply (iblk1 V c 2 t) (iblk1 V c 1 t) (iblk1 V c 0 t) (iblk1 V c 3 t) p q).trans ?_
  have e0 := iblk1_0_apply V c t (ix2 p q) (ix2 (⟨10000 * t.val + p.val, hr⟩ : Fin 100000) q) rfl rfl
  have e1 := iblk1_1_apply V c t (ix2 p q) (ix2 (⟨10000 * t.val + p.val, hr⟩ : Fin 100000) q) rfl rfl
  have e2 := iblk1_2_apply V c t (ix2 p (0 : Fin 1)) (ix2 (⟨10000 * t.val + p.val, hr⟩ : Fin 100000) (0 : Fin 1)) rfl rfl
  have e3 := iblk1_3_apply V c t (ix2 (0 : Fin 1) q)
  rw [e0, e1, e2, e3]

/-- An index of the output array lies in point t's block iff each coordinate lies in the block's range. -/
theorem layer1_mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v42).slice (win1_4.rect t)).set ↔ _
  rw [View.set_slice_whole, Rect.mem_set_unit]
  exact Iff.rfl

/-- Row r of the output lies in the block of point r / 10000, and every point writes its block back. -/
theorem layer1_cover (i : S100000x64.Idx) :
    ∃ t : Fin cfg1.N, (cfg1.win 4).flush t = true ∧ i ∈ ((cfg1.win 4).blk t).view.set := by
  have hN : grid1.N = 10 := N_1
  have hi0 : (i 0).val < 100000 := (i 0).isLt
  have hi1 : (i 1).val < 64 := (i 1).isLt
  have hlt : (i 0).val / 10000 < grid1.N := by omega
  refine ⟨⟨(i 0).val / 10000, hlt⟩, flush1_4 _, ?_⟩
  rw [layer1_mem_blk]
  obtain ⟨e0, e1⟩ := (layer1_idx ⟨(i 0).val / 10000, hlt⟩).2.2.2.2
  intro a
  match a with
  | ⟨0, _⟩ =>
    show win1_4.index ⟨(i 0).val / 10000, hlt⟩ 0 * 10000 ≤ (i 0).val
      ∧ (i 0).val < win1_4.index ⟨(i 0).val / 10000, hlt⟩ 0 * 10000 + 10000
    rw [e0]
    show (i 0).val / 10000 * 10000 ≤ (i 0).val ∧ (i 0).val < (i 0).val / 10000 * 10000 + 10000
    omega
  | ⟨1, _⟩ =>
    show win1_4.index ⟨(i 0).val / 10000, hlt⟩ 1 * 64 ≤ (i 1).val
      ∧ (i 1).val < win1_4.index ⟨(i 0).val / 10000, hlt⟩ 1 * 64 + 64
    rw [e1]
    omega

/-- After the region its output array is the layer's formula of the aggregate, the node's own product, the degree
    column and the bias row as the region found them. -/
theorem region1_out (c : Dev nD) :
    (dat1 (F := Ideal) V c).arrAt 4 cfg1.N
      = Cert.Gcn.layerOut (V c main_v39) (V c main_v4) (V c main_v40) (V c main_v41) :=
  (dat1 V c).arrAt_eq_of_cover 4
    (Cert.Gcn.layerOut (V c main_v39) (V c main_v4) (V c main_v40) (V c main_v41))
    (fun t _ => layer1_flushed_eq V c t) layer1_cover

end Cert.KernelIdeal.Hand

end
-- ==== Proof.Layer3.lean ====
/-
  The second normalised layer after aggregation, as its region computes it. At every grid point the body reads a block
  of 10000 rows of the aggregate, of the node's own product and of the degree column, and the whole bias row, and stores
  max ((agg + xw * (d * d)) + b) 0 entry by entry, where d * d is the degree column squared and spread over the 64
  features and b is the bias row spread over the rows. The ten row blocks tile the [100000, 64] output, so the array
  the region leaves is the layer's formula of the four arrays it found.
-/
import proofs.«177190_j81853486727232_1_alg».proof.Proof.Gen.KernelIdeal.Frame
import proofs.«177190_j81853486727232_1_alg».proof.Proof.Spec
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (V : (c : Dev nD) → (b : Ref sig .tc) → Buf (Elt Ideal) ((c : Thread nD τ).loc b))

/-- The body loads and stores whole buffers: every offset is zero. -/
theorem layer3_zero_offsets : (![0, 0] : Fin 2 → Nat) = fun _ => 0 := funext fun a => by fin_cases a <;> rfl

/-- The block indices over the grid: the three row-blocked inputs and the output are at block (t, 0) at point t, the
    bias row at block (0, 0) at every point. -/
theorem layer3_idx : ∀ t : Fin cfg3.N,
    (win3_0.index t 0 = t.val ∧ win3_0.index t 1 = 0) ∧ (win3_1.index t 0 = t.val ∧ win3_1.index t 1 = 0)
    ∧ (win3_2.index t 0 = t.val ∧ win3_2.index t 1 = 0) ∧ (win3_3.index t 0 = 0 ∧ win3_3.index t 1 = 0)
    ∧ (win3_4.index t 0 = t.val ∧ win3_4.index t 1 = 0) :=
  (by decide +kernel : ∀ t : Fin grid3.N, _)

/-- An [a, 1] column spread to [a, b] reads, at (p, q), the column's entry of row p. -/
theorem layer3_bcast_col {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at (p, q), from its four loads: v0 the degree column, v2 the node's own product, v7 the
    aggregate, v10 the bias row. -/
theorem k3_pay1_apply (v0 : Vec Ideal S10000x1 .f32) (v2 v7 : Vec Ideal S10000x64 .f32) (v10 : Vec Ideal S1x64 .f32)
    (p : Fin 10000) (q : Fin 64) :
    k3_pay1 v0 v2 v7 v10 (ix2 p q)
      = max ((v7 (ix2 p q) + v2 (ix2 p q) * (v0 (ix2 p (0 : Fin 1)) * v0 (ix2 p (0 : Fin 1)))) + v10 (ix2 (0 : Fin 1) q))
          (Ideal.ofBits .f32 0x00000000#32) := by
  unfold k3_pay1
  simp only [shapeCast_self]
  rw [maximumf_apply, addf_apply, addf_apply, mulf_apply, broadcast_apply]
  rw [layer3_bcast_col, broadcastTo_1b_ab_apply, mulf_apply]
  rfl

/-- The aggregate's block at point t is rows 10000 t … 10000 t + 9999 of the aggregate. -/
theorem iblk3_0_apply (c : Dev nD) (t : Fin cfg3.N) (x : S10000x64.Idx) (k : S100000x64.Idx)
    (hk0 : (k 0).val = 10000 * t.val + (x 0).val) (hk1 : (k 1).val = (x 1).val) :
    (iblk3 V c 0 t : Vec Ideal S10000x64 .f32) x = (V c main_v78 : S100000x64.Idx → Elt Ideal .f32) k := by
  have hi := (layer3_idx t).1
  unfold iblk3
  rw [View.read_apply]
  show V c main_v78 _ = V c main_v78 _
  congr 1
  funext a
  apply Fin.ext
  match a with
  | ⟨0, _⟩ => show win3_0.index t 0 * 10000 + 1 * (x 0).val = (k 0).val; rw [hi.1, hk0]; omega
  | ⟨1, _⟩ => show win3_0.index t 1 * 64 + 1 * (x 1).val = (k 1).val; rw [hi.2, hk1]; omega

/-- The block of the node's own product: the same rows. -/
theorem iblk3_1_apply (c : Dev nD) (t : Fin cfg3.N) (x : S10000x64.Idx) (k : S100000x64.Idx)
    (hk0 : (k 0).val = 10000 * t.val + (x 0).val) (hk1 : (k 1).val = (x 1).val) :
    (iblk3 V c 1 t : Vec Ideal S10000x64 .f32) x = (V c main_v43 : S100000x64.Idx → Elt Ideal .f32) k := by
  have hi := (layer3_idx t).2.1
  unfold iblk3
  rw [View.read_apply]
  show V c main_v43 _ = V c main_v43 _
  congr 1
  funext a
  apply Fin.ext
  match a with
  | ⟨0, _⟩ => show win3_1.index t 0 * 10000 + 1 * (x 0).val = (k 0).val; rw [hi.1, hk0]; omega
  | ⟨1, _⟩ => show win3_1.index t 1 * 64 + 1 * (x 1).val = (k 1).val; rw [hi.2, hk1]; omega

/-- The degree column's block: the same rows of a one-column array. -/
theorem iblk3_2_apply (c : Dev nD) (t : Fin cfg3.N) (x : S10000x1.Idx) (k : S100000x1.Idx)
    (hk0 : (k 0).val = 10000 * t.val + (x 0).val) (hk1 : (k 1).val = (x 1).val) :
    (iblk3 V c 2 t : Vec Ideal S10000x1 .f32) x = (V c main_v79 : S100000x1.Idx → Elt Ideal .f32) k := by
  have hi := (layer3_idx t).2.2.1
  unfold iblk3
  rw [View.read_apply]
  show V c main_v79 _ = V c main_v79 _
  congr 1
  funext a
  apply Fin.ext
  match a with
  | ⟨0, _⟩ => show win3_2.index t 0 * 10000 + 1 * (x 0).val = (k 0).val; rw [hi.1, hk0]; omega
  | ⟨1, _⟩ => show win3_2.index t 1 * 1 + 1 * (x 1).val = (k 1).val; rw [hi.2, hk1]; omega

/-- The bias row's block is the whole one-row array at every point. -/
theorem iblk3_3_apply (c : Dev nD) (t : Fin cfg3.N) (x : S1x64.Idx) :
    (iblk3 V c 3 t : Vec Ideal S1x64 .f32) x = (V c main_v80 : S1x64.Idx → Elt Ideal .f32) x := by
  have hi := (layer3_idx t).2.2.2.1
  unfold iblk3
  rw [View.read_apply]
  show V c main_v80 _ = V c main_v80 _
  congr 1
  funext a
  apply Fin.ext
  match a with
  | ⟨0, _⟩ => show win3_3.index t 0 * 1 + 1 * (x 0).val = (x 0).val; rw [hi.1]; omega
  | ⟨1, _⟩ => show win3_3.index t 1 * 64 + 1 * (x 1).val = (x 1).val; rw [hi.2]; omega

/-- What point t writes back is block t of the layer's formula of the four arrays: entry (p, q) of the block is entry
    (10000 t + p, q) of the formula. -/
theorem layer3_flushed_eq (c : Dev nD) (t : Fin cfg3.N) :
    (dat3 (F := Ideal) V c).flushed 4 t = ((cfg3.win 4).blk t).view.read (Elt Ideal)
      (Cert.Gcn.layerOut (V c main_v78) (V c main_v43) (V c main_v79) (V c main_v80)) := by
  show (cfg3.win 4).cut (grid3.coords t) ((dat3 V c).after 4 t) = _
  rw [after3_4]
  unfold out3_4
  rw [View.canon_unit_zero layer3_zero_offsets]
  simp only [View.ld_unit_zero (S := S10000x64) layer3_zero_offsets, View.ld_unit_zero (S := S10000x1) layer3_zero_offsets,
    View.ld_unit_zero (S := S1x64) layer3_zero_offsets]
  funext j
  obtain ⟨p, q, rfl⟩ : ∃ (p : Fin 10000) (q : Fin 64), j = ix2 p q := ⟨j 0, j 1, eq_ix2 j⟩
  have hN : grid3.N = 10 := N_3
  have ht : t.val < 10 := by have h : t.val < grid3.N := t.isLt; omega
  have hp : p.val < 10000 := p.isLt
  have hr : 10000 * t.val + p.val < 100000 := by omega
  have hi4 := (layer3_idx t).2.2.2.2
  have hemb : ((cfg3.win 4).blk t).view.emb (ix2 p q)
      = (ix2 (⟨10000 * t.val + p.val, hr⟩ : Fin 100000) q : S100000x64.Idx) := by
    funext a
    apply Fin.ext
    match a with
    | ⟨0, _⟩ => show win3_4.index t 0 * 10000 + 1 * p.val = 10000 * t.val + p.val; rw [hi4.1]; omega
    | ⟨1, _⟩ => show win3_4.index t 1 * 64 + 1 * q.val = q.val; rw [hi4.2]; omega
  show k3_pay1 (iblk3 V c 2 t) (iblk3 V c 1 t) (iblk3 V c 0 t) (iblk3 V c 3 t) (ix2 p q)
    = Cert.Gcn.layerOut (V c main_v78) (V c main_v43) (V c main_v79) (V c main_v80)
        (((cfg3.win 4).blk t).view.emb (ix2 p q))
  rw [hemb, Cert.Gcn.layerOut_apply]
  refine (k3_pay1_apply (iblk3 V c 2 t) (iblk3 V c 1 t) (iblk3 V c 0 t) (iblk3 V c 3 t) p q).trans ?_
  have e0 := iblk3_0_apply V c t (ix2 p q) (ix2 (⟨10000 * t.val + p.val, hr⟩ : Fin 100000) q) rfl rfl
  have e1 := iblk3_1_apply V c t (ix2 p q) (ix2 (⟨10000 * t.val + p.val, hr⟩ : Fin 100000) q) rfl rfl
  have e2 := iblk3_2_apply V c t (ix2 p (0 : Fin 1)) (ix2 (⟨10000 * t.val + p.val, hr⟩ : Fin 100000) (0 : Fin 1)) rfl rfl
  have e3 := iblk3_3_apply V c t (ix2 (0 : Fin 1) q)
  rw [e0, e1, e2, e3]

/-- An index of the output array lies in point t's block iff each coordinate lies in the block's range. -/
theorem layer3_mem_blk (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v81).slice (win3_4.rect t)).set ↔ _
  rw [View.set_slice_whole, Rect.mem_set_unit]
  exact Iff.rfl

/-- Row r of the output lies in the block of point r / 10000, and every point writes its block back. -/
theorem layer3_cover (i : S100000x64.Idx) :
    ∃ t : Fin cfg3.N, (cfg3.win 4).flush t = true ∧ i ∈ ((cfg3.win 4).blk t).view.set := by
  have hN : grid3.N = 10 := N_3
  have hi0 : (i 0).val < 100000 := (i 0).isLt
  have hi1 : (i 1).val < 64 := (i 1).isLt
  have hlt : (i 0).val / 10000 < grid3.N := by omega
  refine ⟨⟨(i 0).val / 10000, hlt⟩, flush3_4 _, ?_⟩
  rw [layer3_mem_blk]
  obtain ⟨e0, e1⟩ := (layer3_idx ⟨(i 0).val / 10000, hlt⟩).2.2.2.2
  intro a
  match a with
  | ⟨0, _⟩ =>
    show win3_4.index ⟨(i 0).val / 10000, hlt⟩ 0 * 10000 ≤ (i 0).val
      ∧ (i 0).val < win3_4.index ⟨(i 0).val / 10000, hlt⟩ 0 * 10000 + 10000
    rw [e0]
    show (i 0).val / 10000 * 10000 ≤ (i 0).val ∧ (i 0).val < (i 0).val / 10000 * 10000 + 10000
    omega
  | ⟨1, _⟩ =>
    show win3_4.index ⟨(i 0).val / 10000, hlt⟩ 1 * 64 ≤ (i 1).val
      ∧ (i 1).val < win3_4.index ⟨(i 0).val / 10000, hlt⟩ 1 * 64 + 64
    rw [e1]
    omega

/-- After the region its output array is the layer's formula of the aggregate, the node's own product, the degree
    column and the bias row as the region found them. -/
theorem region3_out (c : Dev nD) :
    (dat3 (F := Ideal) V c).arrAt 4 cfg3.N
      = Cert.Gcn.layerOut (V c main_v78) (V c main_v43) (V c main_v79) (V c main_v80) :=
  (dat3 V c).arrAt_eq_of_cover 4
    (Cert.Gcn.layerOut (V c main_v78) (V c main_v43) (V c main_v79) (V c main_v80))
    (fun t _ => layer3_flushed_eq V c t) layer3_cover

end Cert.KernelIdeal.Hand

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«177190_j81853486727232_1_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.Heads4.lean ====
/-
  The fused read-out of the three heads, block by block.

  On a block of 10000 rows of the hidden features h, each head computes 32 hidden units max (h · Wa + ba) 0, one
  output unit (· Wb + bb) and the logistic function 1 / (1 + exp (-z)) of it; the three resulting columns are laid
  side by side as the columns 0, 1, 2 of a [10000, 3] block. The narrowings to 16 bits before each product are the
  identity over the extended reals, a product into a zero accumulator is the plain sum, and a bias row laid along
  every row adds the bias of the column. The ten row blocks tile the [100000, 3] result: row n lies in the block of
  point n / 10000, and row p of the block of point t is row 10000 t + p of h, while every point reads the weights
  and biases whole. So entry (n, j) of the array the region leaves is head j at node n.
-/
import proofs.«177190_j81853486727232_1_alg».proof.Proof.Gen.KernelIdeal.Frame
import proofs.«177190_j81853486727232_1_alg».proof.Proof.Spec
import proofs.«177190_j81853486727232_1_alg».proof.Proof.LibDenseBlock
import proofs.«177190_j81853486727232_1_alg».proof.Proof.LibDenseLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

/-! ## One head on a block -/

section Block

variable (hlt : FTy.bits .bf16 < FTy.bits .f32)
variable (hb32 : S1x32.Broadcasts S10000x32) (hb1 : S1x1.Broadcasts S10000x1)

/-- A head up to its output unit's product: entry (p, 0) is the sum over the 32 hidden units j of
    max (Σ k, h (p, k) * Wa (k, j) + ba j) 0 * Wb (j, 0). -/
theorem unit_apply (h : FVec Ideal S10000x64 .bf16) (Wa : FVec Ideal S64x32 .f32) (ba : FVec Ideal S1x32 .f32)
    (Wb : FVec Ideal S32x1 .f32) (p : Fin 10000) :
    matmul dot_S10000x32_S32x1_S10000x1_1_0_0_1_n_n none
        (truncf .bf16
          (maximumf
            (addf (matmul dot_S10000x64_S64x32_S10000x32_1_0_0_1_n_n none h (truncf .bf16 Wa hlt)
                (constant S10000x32 .f32 0x00000000#32))
              (broadcastTo S10000x32 ba hb32))
            (broadcast S10000x32 (Scalar.ofBits (F := Ideal) .f32 0x00000000#32))) hlt)
        (truncf .bf16 Wb hlt) (constant S10000x1 .f32 0x00000000#32) (ix2 p (0 : Fin 1))
      = ∑ j : Fin 32, max ((∑ k : Fin 64, h (ix2 p k) * Wa (ix2 k j)) + ba (ix2 (0 : Fin 1) j))
            (Ideal.ofBits .f32 0x00000000#32) * Wb (ix2 j (0 : Fin 1)) := by
  refine (DenseBlock.matmul_zero_apply (K := 10000) (N := 32) (Q := 1) _ _ _ p 0).trans ?_
  refine Finset.sum_congr rfl fun j _ => ?_
  show max (addf (matmul dot_S10000x64_S64x32_S10000x32_1_0_0_1_n_n none h (truncf .bf16 Wa hlt)
        (constant S10000x32 .f32 0x00000000#32)) (broadcastTo S10000x32 ba hb32) (ix2 p j))
      (Ideal.ofBits .f32 0x00000000#32) * Wb (ix2 j (0 : Fin 1)) = _
  rw [show addf (matmul dot_S10000x64_S64x32_S10000x32_1_0_0_1_n_n none h (truncf .bf16 Wa hlt)
        (constant S10000x32 .f32 0x00000000#32)) (broadcastTo S10000x32 ba hb32) (ix2 p j)
      = (∑ k : Fin 64, h (ix2 p k) * Wa (ix2 k j)) + ba (ix2 (0 : Fin 1) j) from
    DenseLayer.affine_apply (K := 10000) (N := 64) (Q := 32) _ h (truncf .bf16 Wa hlt) ba hb32 p j]

/-- A head from its output unit's product z: entry (p, 0) is the logistic function of z (p, 0) + bb. -/
theorem logit_apply (z : FVec Ideal S10000x1 .f32) (bb : FVec Ideal S1x1 .f32) (p : Fin 10000) :
    logistic (addf z (broadcastTo S10000x1 bb hb1)) (ix2 p (0 : Fin 1))
      = Ideal.logistic (z (ix2 p (0 : Fin 1)) + bb (ix2 (0 : Fin 1) (0 : Fin 1))) := by
  show Ideal.logistic (z (ix2 p (0 : Fin 1)) + broadcastTo S10000x1 bb hb1 (ix2 p (0 : Fin 1))) = _
  rw [broadcastTo_1b_ab_apply bb hb1 p (0 : Fin 1)]

end Block

/-! ## The three columns side by side -/

section Columns

variable (hcat : Shape.Concatenates [S10000x1, S10000x1, S10000x1] S10000x3 1)
variable (c0 c1 c2 : FVec Ideal S10000x1 .f32) (p : Fin 10000)

/-- Off the joined axis an index of a column and an index of the joined block have the same coordinate. -/
theorem col_rows (j : Fin 3) (b : Fin S10000x1.rank)
    (hb : b.cast (rfl : S10000x1.rank = S10000x3.rank) ≠ (1 : Fin 2)) :
    ((ix2 p (0 : Fin 1) : S10000x1.Idx) b).val = ((ix2 p j : S10000x3.Idx) (b.cast rfl)).val := by
  match b with
  | ⟨0, _⟩ => rfl
  | ⟨1, _⟩ => exact absurd rfl hb

/-- Column 0 of the joined block is the first piece. -/
theorem cat3_0 : concatenate S10000x3 1 [⟨S10000x1, c0⟩, ⟨S10000x1, c1⟩, ⟨S10000x1, c2⟩] hcat (ix2 p (0 : Fin 3))
    = c0 (ix2 p (0 : Fin 1)) :=
  concatenate_apply_piece (t := S10000x3) (1 : Fin 2) [⟨S10000x1, c0⟩, ⟨S10000x1, c1⟩, ⟨S10000x1, c2⟩] hcat
    (ix2 p (0 : Fin 3)) 0 (show 0 < 3 by decide) S10000x1 c0 rfl rfl 0 rfl (ix2 p (0 : Fin 1)) (col_rows p 0) rfl

/-- Column 1 of the joined block is the second piece. -/
theorem cat3_1 : concatenate S10000x3 1 [⟨S10000x1, c0⟩, ⟨S10000x1, c1⟩, ⟨S10000x1, c2⟩] hcat (ix2 p (1 : Fin 3))
    = c1 (ix2 p (0 : Fin 1)) :=
  concatenate_apply_piece (t := S10000x3) (1 : Fin 2) [⟨S10000x1, c0⟩, ⟨S10000x1, c1⟩, ⟨S10000x1, c2⟩] hcat
    (ix2 p (1 : Fin 3)) 1 (show 1 < 3 by decide) S10000x1 c1 rfl rfl 1 rfl (ix2 p (0 : Fin 1)) (col_rows p 1) rfl

/-- Column 2 of the joined block is the third piece. -/
theorem cat3_2 : concatenate S10000x3 1 [⟨S10000x1, c0⟩, ⟨S10000x1, c1⟩, ⟨S10000x1, c2⟩] hcat (ix2 p (2 : Fin 3))
    = c2 (ix2 p (0 : Fin 1)) :=
  concatenate_apply_piece (t := S10000x3) (1 : Fin 2) [⟨S10000x1, c0⟩, ⟨S10000x1, c1⟩, ⟨S10000x1, c2⟩] hcat
    (ix2 p (2 : Fin 3)) 2 (show 2 < 3 by decide) S10000x1 c2 rfl rfl 2 rfl (ix2 p (0 : Fin 1)) (col_rows p 2) rfl

end Columns

/-! ## What the body stores -/

/-- A head's value at a node depends on the node's own row of features only. -/
theorem headOne_rows {N N' H J : Nat} (h : FVec Ideal ⟨2, ![N, H]⟩ .f32) (h' : FVec Ideal ⟨2, ![N', H]⟩ .f32)
    (Wa : FVec Ideal ⟨2, ![H, J]⟩ .f32) (ba : FVec Ideal ⟨2, ![1, J]⟩ .f32) (Wb : FVec Ideal ⟨2, ![J, 1]⟩ .f32)
    (bb : FVec Ideal ⟨2, ![1, 1]⟩ .f32) (n : Fin N) (n' : Fin N') (hk : ∀ k : Fin H, h (ix2 n k) = h' (ix2 n' k)) :
    Cert.Gcn.headOne h Wa ba Wb bb n = Cert.Gcn.headOne h' Wa ba Wb bb n' := by
  unfold Cert.Gcn.headOne
  simp only [hk]

/-- The block of features as the products read it: narrowing to 16 bits is the identity over the extended reals. -/
theorem pay2_eq (x0 : Vec Ideal S10000x64 .f32) : (k4_pay2 x0 : S10000x64.Idx → EReal) = x0 := by
  unfold k4_pay2
  simp only [shapeCast_self]
  rfl

/-- The first head's column: entry (p, 0) is the head at row p of the block. -/
theorem pay3_apply (x0 : Vec Ideal S10000x64 .f32) (x1 : Vec Ideal S64x32 .f32) (x2 : Vec Ideal S1x32 .f32)
    (x3 : Vec Ideal S32x1 .f32) (x4 : Vec Ideal S1x1 .f32) (p : Fin 10000) :
    k4_pay3 x0 x1 x2 x3 x4 (ix2 p (0 : Fin 1))
      = Cert.Gcn.headOne (N := 10000) (H := 64) (J := 32) x0 x1 x2 x3 x4 p := by
  unfold k4_pay3
  simp only [shapeCast_self]
  refine (logit_apply _ _ x4 p).trans ?_
  unfold Cert.Gcn.headOne
  rw [unit_apply _ _ (k4_pay2 x0) x1 x2 x3 p, pay2_eq]

/-- The second head up to its output unit's product, at (p, 0). -/
theorem pay4_unit_apply (x0 : Vec Ideal S10000x64 .f32) (x5 : Vec Ideal S64x32 .f32) (x6 : Vec Ideal S1x32 .f32)
    (x7 : Vec Ideal S32x1 .f32) (p : Fin 10000) :
    k4_pay4 x0 x5 x6 x7 (ix2 p (0 : Fin 1))
      = ∑ j : Fin 32, max ((∑ k : Fin 64, x0 (ix2 p k) * x5 (ix2 k j)) + x6 (ix2 (0 : Fin 1) j))
            (Ideal.ofBits .f32 0x00000000#32) * x7 (ix2 j (0 : Fin 1)) := by
  unfold k4_pay4
  simp only [shapeCast_self]
  rw [unit_apply _ _ (k4_pay2 x0) x5 x6 x7 p, pay2_eq]

/-- Entry (p, j) of what the body stores: head j at row p of the block of features. -/
theorem pay4_apply (x0 : Vec Ideal S10000x64 .f32) (x1 : Vec Ideal S64x32 .f32) (x2 : Vec Ideal S1x32 .f32) (x3 : Vec Ideal S32x1 .f32)
    (x4 : Vec Ideal S1x1 .f32) (x5 : Vec Ideal S64x32 .f32) (x6 : Vec Ideal S1x32 .f32) (x7 : Vec Ideal S32x1 .f32)
    (x8 : Vec Ideal S1x1 .f32) (x9 : Vec Ideal S64x32 .f32) (x10 : Vec Ideal S1x32 .f32) (x11 : Vec Ideal S32x1 .f32)
    (x12 : Vec Ideal S1x1 .f32) (p : Fin 10000) (j : Fin 3) :
    k4_pay1 (k4_pay2 x0) (k4_pay3 x0 x1 x2 x3 x4) (k4_pay4 x0 x5 x6 x7) x8 x9 x10 x11 x12 (ix2 p j)
      = if j.val = 0 then Cert.Gcn.headOne (N := 10000) (H := 64) (J := 32) x0 x1 x2 x3 x4 p
        else if j.val = 1 then Cert.Gcn.headOne (N := 10000) (H := 64) (J := 32) x0 x5 x6 x7 x8 p
        else Cert.Gcn.headOne (N := 10000) (H := 64) (J := 32) x0 x9 x10 x11 x12 p := by
  unfold k4_pay1
  simp only [shapeCast_self]
  by_cases h0 : j.val = 0
  · rw [if_pos h0]
    obtain rfl : j = (0 : Fin 3) := Fin.ext h0
    refine (cat3_0 _ _ _ _ p).trans ?_
    exact pay3_apply x0 x1 x2 x3 x4 p
  · rw [if_neg h0]
    by_cases h1 : j.val = 1
    · rw [if_pos h1]
      obtain rfl : j = (1 : Fin 3) := Fin.ext h1
      refine (cat3_1 _ _ _ _ p).trans ?_
      refine (logit_apply _ _ x8 p).trans ?_
      unfold Cert.Gcn.headOne
      rw [pay4_unit_apply]
    · rw [if_neg h1]
      obtain rfl : j = (2 : Fin 3) := Fin.ext (by have := j.isLt; omega)
      refine (cat3_2 _ _ _ _ p).trans ?_
      refine (logit_apply _ _ x12 p).trans ?_
      unfold Cert.Gcn.headOne
      rw [unit_apply _ _ (k4_pay2 x0) x9 x10 x11 p, pay2_eq]

/-! ## The blocks the points read and write -/

variable (V : (c : Dev nD) → (b : Ref sig .tc) → Buf (Elt Ideal) ((c : Thread nD τ).loc b))

theorem hz4 : (![0, 0] : Fin 2 → Nat) = fun _ => 0 := funext fun a => by fin_cases a <;> rfl

/-- The block indices over the grid: the features and the result are row-blocked, at block (t, 0). -/
theorem idx4_rows : ∀ t : Fin cfg4.N, win4_0.index t (0 : Fin 2) = t.val ∧ win4_0.index t (1 : Fin 2) = 0
    ∧ win4_13.index t (0 : Fin 2) = t.val ∧ win4_13.index t (1 : Fin 2) = 0 :=
  (by decide +kernel : ∀ t : Fin grid4.N, _)

/-! The weights and biases are read whole at every point: block (0, 0). -/
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = 0 ∧ win4_7.index t (1 : Fin 2) = 0 :=
  (by decide +kernel : ∀ t : Fin grid4.N, _)
theorem idx4_8 : ∀ t : Fin cfg4.N, win4_8.index t (0 : Fin 2) = 0 ∧ win4_8.index t (1 : Fin 2) = 0 :=
  (by decide +kernel : ∀ t : Fin grid4.N, _)
theorem idx4_9 : ∀ t : Fin cfg4.N, win4_9.index t (0 : Fin 2) = 0 ∧ win4_9.index t (1 : Fin 2) = 0 :=
  (by decide +kernel : ∀ t : Fin grid4.N, _)
theorem idx4_10 : ∀ t : Fin cfg4.N, win4_10.index t (0 : Fin 2) = 0 ∧ win4_10.index t (1 : Fin 2) = 0 :=
  (by decide +kernel : ∀ t : Fin grid4.N, _)
theorem idx4_11 : ∀ t : Fin cfg4.N, win4_11.index t (0 : Fin 2) = 0 ∧ win4_11.index t (1 : Fin 2) = 0 :=
  (by decide +kernel : ∀ t : Fin grid4.N, _)
theorem idx4_12 : ∀ t : Fin cfg4.N, win4_12.index t (0 : Fin 2) = 0 ∧ win4_12.index t (1 : Fin 2) = 0 :=
  (by decide +kernel : ∀ t : Fin grid4.N, _)

/-- Row p of point t's block of the features is row 10000 t + p of the features. -/
theorem hblk4_apply (c : Dev nD) (t : Fin cfg4.N) (p : Fin 10000) (k : Fin 64) (n : Fin 100000)
    (hn : n.val = 10000 * t.val + p.val) :
    (iblk4 V c 0 t : Vec Ideal S10000x64 .f32) (ix2 p k)
      = (V c main_v81 : S100000x64.Idx → Ideal .f32) (ix2 n k) := by
  obtain ⟨e0, e1, -⟩ := idx4_rows t
  unfold iblk4
  rw [View.read_apply]
  show V c main_v81 _ = V c main_v81 _
  congr 1
  funext a
  apply Fin.ext
  match a with
  | ⟨0, _⟩ => show win4_0.index t (0 : Fin 2) * 10000 + 1 * p.val = n.val; rw [e0, hn]; omega
  | ⟨1, _⟩ => show win4_0.index t (1 : Fin 2) * 64 + 1 * k.val = k.val; rw [e1]; omega

/-- Every point's block of the first head's hidden weights is the whole array. -/
theorem wblk4_1 (c : Dev nD) (t : Fin cfg4.N) :
    (iblk4 V c 1 t : Vec Ideal S64x32 .f32) = (V c main_arg6 : S64x32.Idx → Ideal .f32) := by
  obtain ⟨e0, e1⟩ := idx4_1 t
  funext y
  unfold iblk4
  rw [View.read_apply]
  show V c main_arg6 _ = V c main_arg6 _
  congr 1
  funext a
  apply Fin.ext
  match a with
  | ⟨0, _⟩ => show win4_1.index t (0 : Fin 2) * 64 + 1 * (y 0).val = (y 0).val; rw [e0]; omega
  | ⟨1, _⟩ => show win4_1.index t (1 : Fin 2) * 32 + 1 * (y 1).val = (y 1).val; rw [e1]; omega

/-- Every point's block of the first head's hidden bias is the whole array. -/
theorem wblk4_2 (c : Dev nD) (t : Fin cfg4.N) :
    (iblk4 V c 2 t : Vec Ideal S1x32 .f32) = (V c main_v82 : S1x32.Idx → Ideal .f32) := by
  obtain ⟨e0, e1⟩ := idx4_2 t
  funext y
  unfold iblk4
  rw [View.read_apply]
  show V c main_v82 _ = V c main_v82 _
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 32 + 1 * (y 1).val = (y 1).val; rw [e1]; omega

/-- Every point's block of the first head's output weights is the whole array. -/
theorem wblk4_3 (c : Dev nD) (t : Fin cfg4.N) :
    (iblk4 V c 3 t : Vec Ideal S32x1 .f32) = (V c main_arg8 : S32x1.Idx → Ideal .f32) := by
  obtain ⟨e0, e1⟩ := idx4_3 t
  funext y
  unfold iblk4
  rw [View.read_apply]
  show V c main_arg8 _ = V c main_arg8 _
  congr 1
  funext a
  apply Fin.ext
  match a with
  | ⟨0, _⟩ => show win4_3.index t (0 : Fin 2) * 32 + 1 * (y 0).val = (y 0).val; rw [e0]; omega
  | ⟨1, _⟩ => show win4_3.index t (1 : Fin 2) * 1 + 1 * (y 1).val = (y 1).val; rw [e1]; omega

/-- Every point's block of the first head's output bias is the whole array. -/
theorem wblk4_4 (c : Dev nD) (t : Fin cfg4.N) :
    (iblk4 V c 4 t : Vec Ideal S1x1 .f32) = (V c main_v83 : S1x1.Idx → Ideal .f32) := by
  obtain ⟨e0, e1⟩ := idx4_4 t
  funext y
  unfold iblk4
  rw [View.read_apply]
  show V c main_v83 _ = V c main_v83 _
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 1 + 1 * (y 1).val = (y 1).val; rw [e1]; omega

/-- Every point's block of the second head's hidden weights is the whole array. -/
theorem wblk4_5 (c : Dev nD) (t : Fin cfg4.N) :
    (iblk4 V c 5 t : Vec Ideal S64x32 .f32) = (V c main_arg10 : S64x32.Idx → Ideal .f32) := by
  obtain ⟨e0, e1⟩ := idx4_5 t
  funext y
  unfold iblk4
  rw [View.read_apply]
  show V c main_arg10 _ = V c main_arg10 _
  congr 1
  funext a
  apply Fin.ext
  match a with
  | ⟨0, _⟩ => show win4_5.index t (0 : Fin 2) * 64 + 1 * (y 0).val = (y 0).val; rw [e0]; omega
  | ⟨1, _⟩ => show win4_5.index t (1 : Fin 2) * 32 + 1 * (y 1).val = (y 1).val; rw [e1]; omega

/-- Every point's block of the second head's hidden bias is the whole array. -/
theorem wblk4_6 (c : Dev nD) (t : Fin cfg4.N) :
    (iblk4 V c 6 t : Vec Ideal S1x32 .f32) = (V c main_v84 : S1x32.Idx → Ideal .f32) := by
  obtain ⟨e0, e1⟩ := idx4_6 t
  funext y
  unfold iblk4
  rw [View.read_apply]
  show V c main_v84 _ = V c main_v84 _
  congr 1
  funext a
  apply Fin.ext
  match a with
  | ⟨0, _⟩ => show win4_6.index t (0 : Fin 2) * 1 + 1 * (y 0).val = (y 0).val; rw [e0]; omega
  | ⟨1, _⟩ => show win4_6.index t (1 : Fin 2) * 32 + 1 * (y 1).val = (y 1).val; rw [e1]; omega

/-- Every point's block of the second head's output weights is the whole array. -/
theorem wblk4_7 (c : Dev nD) (t : Fin cfg4.N) :
    (iblk4 V c 7 t : Vec Ideal S32x1 .f32) = (V c main_arg12 : S32x1.Idx → Ideal .f32) := by
  obtain ⟨e0, e1⟩ := idx4_7 t
  funext y
  unfold iblk4
  rw [View.read_apply]
  show V c main_arg12 _ = V c main_arg12 _
  congr 1
  funext a
  apply Fin.ext
  match a with
  | ⟨0, _⟩ => show win4_7.index t (0 : Fin 2) * 32 + 1 * (y 0).val = (y 0).val; rw [e0]; omega
  | ⟨1, _⟩ => show win4_7.index t (1 : Fin 2) * 1 + 1 * (y 1).val = (y 1).val; rw [e1]; omega

/-- Every point's block of the second head's output bias is the whole array. -/
theorem wblk4_8 (c : Dev nD) (t : Fin cfg4.N) :
    (iblk4 V c 8 t : Vec Ideal S1x1 .f32) = (V c main_v85 : S1x1.Idx → Ideal .f32) := by
  obtain ⟨e0, e1⟩ := idx4_8 t
  funext y
  unfold iblk4
  rw [View.read_apply]
  show V c main_v85 _ = V c main_v85 _
  congr 1
  funext a
  apply Fin.ext
  match a with
  | ⟨0, _⟩ => show win4_8.index t (0 : Fin 2) * 1 + 1 * (y 0).val = (y 0).val; rw [e0]; omega
  | ⟨1, _⟩ => show win4_8.index t (1 : Fin 2) * 1 + 1 * (y 1).val = (y 1).val; rw [e1]; omega

/-- Every point's block of the third head's hidden weights is the whole array. -/
theorem wblk4_9 (c : Dev nD) (t : Fin cfg4.N) :
    (iblk4 V c 9 t : Vec Ideal S64x32 .f32) = (V c main_arg14 : S64x32.Idx → Ideal .f32) := by
  obtain ⟨e0, e1⟩ := idx4_9 t
  funext y
  unfold iblk4
  rw [View.read_apply]
  show V c main_arg14 _ = V c main_arg14 _
  congr 1
  funext a
  apply Fin.ext
  match a with
  | ⟨0, _⟩ => show win4_9.index t (0 : Fin 2) * 64 + 1 * (y 0).val = (y 0).val; rw [e0]; omega
  | ⟨1, _⟩ => show win4_9.index t (1 : Fin 2) * 32 + 1 * (y 1).val = (y 1).val; rw [e1]; omega

/-- Every point's block of the third head's hidden bias is the whole array. -/
theorem wblk4_10 (c : Dev nD) (t : Fin cfg4.N) :
    (iblk4 V c 10 t : Vec Ideal S1x32 .f32) = (V c main_v86 : S1x32.Idx → Ideal .f32) := by
  obtain ⟨e0, e1⟩ := idx4_10 t
  funext y
  unfold iblk4
  rw [View.read_apply]
  show V c main_v86 _ = V c main_v86 _
  congr 1
  funext a
  apply Fin.ext
  match a with
  | ⟨0, _⟩ => show win4_10.index t (0 : Fin 2) * 1 + 1 * (y 0).val = (y 0).val; rw [e0]; omega
  | ⟨1, _⟩ => show win4_10.index t (1 : Fin 2) * 32 + 1 * (y 1).val = (y 1).val; rw [e1]; omega

/-- Every point's block of the third head's output weights is the whole array. -/
theorem wblk4_11 (c : Dev nD) (t : Fin cfg4.N) :
    (iblk4 V c 11 t : Vec Ideal S32x1 .f32) = (V c main_arg16 : S32x1.Idx → Ideal .f32) := by
  obtain ⟨e0, e1⟩ := idx4_11 t
  funext y
  unfold iblk4
  rw [View.read_apply]
  show V c main_arg16 _ = V c main_arg16 _
  congr 1
  funext a
  apply Fin.ext
  match a with
  | ⟨0, _⟩ => show win4_11.index t (0 : Fin 2) * 32 + 1 * (y 0).val = (y 0).val; rw [e0]; omega
  | ⟨1, _⟩ => show win4_11.index t (1 : Fin 2) * 1 + 1 * (y 1).val = (y 1).val; rw [e1]; omega

/-- Every point's block of the third head's output bias is the whole array. -/
theorem wblk4_12 (c : Dev nD) (t : Fin cfg4.N) :
    (iblk4 V c 12 t : Vec Ideal S1x1 .f32) = (V c main_v87 : S1x1.Idx → Ideal .f32) := by
  obtain ⟨e0, e1⟩ := idx4_12 t
  funext y
  unfold iblk4
  rw [View.read_apply]
  show V c main_v87 _ = V c main_v87 _
  congr 1
  funext a
  apply Fin.ext
  match a with
  | ⟨0, _⟩ => show win4_12.index t (0 : Fin 2) * 1 + 1 * (y 0).val = (y 0).val; rw [e0]; omega
  | ⟨1, _⟩ => show win4_12.index t (1 : Fin 2) * 1 + 1 * (y 1).val = (y 1).val; rw [e1]; omega

/-- Entry (p, q) of the result block of point t is entry (10000 t + p, q) of the result array. -/
theorem oemb4 (t : Fin cfg4.N) (p : Fin 10000) (q : Fin 3) (n : Fin 100000)
    (hn : n.val = 10000 * t.val + p.val) :
    ((cfg4.win 13).blk t).view.emb (ix2 p q : S10000x3.Idx) = (ix2 n q : S100000x3.Idx) := by
  obtain ⟨-, -, e2, e3⟩ := idx4_rows t
  funext a
  apply Fin.ext
  match a with
  | ⟨0, _⟩ => show win4_13.index t (0 : Fin 2) * 10000 + 1 * p.val = n.val; rw [e2, hn]; omega
  | ⟨1, _⟩ => show win4_13.index t (1 : Fin 2) * 3 + 1 * q.val = q.val; rw [e3]; omega

/-! ## From the blocks to the array -/

/-- What point t writes back is block t of the three heads of the whole arrays. -/
theorem flushed4 (c : Dev nD) (t : Fin cfg4.N) :
    (dat4 (F := Ideal) V c).flushed 13 t
      = ((cfg4.win 13).blk t).view.read (Elt Ideal)
          (Cert.Gcn.headsOut (V c main_v81) (V c main_arg6) (V c main_v82) (V c main_arg8) (V c main_v83) (V c main_arg10) (V c main_v84) (V c main_arg12) (V c main_v85) (V c main_arg14) (V c main_v86) (V c main_arg16) (V c main_v87)) := by
  show (cfg4.win 13).cut (grid4.coords t) ((dat4 V c).after 13 t) = _
  rw [after4_13]
  unfold out4_13
  rw [View.canon_unit_zero hz4]
  simp only [View.ld_unit_zero (S := S10000x64) hz4, View.ld_unit_zero (S := S64x32) hz4,
    View.ld_unit_zero (S := S1x32) hz4, View.ld_unit_zero (S := S32x1) hz4, View.ld_unit_zero (S := S1x1) hz4]
  funext j
  obtain ⟨p, q, rfl⟩ : ∃ (p : Fin 10000) (q : Fin 3), j = ix2 p q := ⟨j 0, j 1, eq_ix2 j⟩
  have hN : cfg4.N = 10 := N_4
  have ht : t.val < 10 := hN ▸ t.isLt
  let n : Fin 100000 := ⟨10000 * t.val + p.val, by have := p.isLt; omega⟩
  show k4_pay1 (k4_pay2 (iblk4 V c 0 t)) (k4_pay3 (iblk4 V c 0 t) (iblk4 V c 1 t) (iblk4 V c 2 t) (iblk4 V c 3 t) (iblk4 V c 4 t))
      (k4_pay4 (iblk4 V c 0 t) (iblk4 V c 5 t) (iblk4 V c 6 t) (iblk4 V c 7 t)) (iblk4 V c 8 t) (iblk4 V c 9 t) (iblk4 V c 10 t) (iblk4 V c 11 t) (iblk4 V c 12 t) (ix2 p q)
    = Cert.Gcn.headsOut (V c main_v81) (V c main_arg6) (V c main_v82) (V c main_arg8) (V c main_v83) (V c main_arg10) (V c main_v84) (V c main_arg12) (V c main_v85) (V c main_arg14) (V c main_v86) (V c main_arg16) (V c main_v87) (((cfg4.win 13).blk t).view.emb (ix2 p q))
  rw [oemb4 t p q n rfl, pay4_apply]
  show (if q.val = 0 then Cert.Gcn.headOne (N := 10000) (H := 64) (J := 32) (iblk4 V c 0 t) (iblk4 V c 1 t) (iblk4 V c 2 t) (iblk4 V c 3 t) (iblk4 V c 4 t) p
      else if q.val = 1 then Cert.Gcn.headOne (N := 10000) (H := 64) (J := 32) (iblk4 V c 0 t) (iblk4 V c 5 t) (iblk4 V c 6 t) (iblk4 V c 7 t) (iblk4 V c 8 t) p
      else Cert.Gcn.headOne (N := 10000) (H := 64) (J := 32) (iblk4 V c 0 t) (iblk4 V c 9 t) (iblk4 V c 10 t) (iblk4 V c 11 t) (iblk4 V c 12 t) p)
    = (if q.val = 0 then Cert.Gcn.headOne (V c main_v81) (V c main_arg6) (V c main_v82) (V c main_arg8) (V c main_v83) n
      else if q.val = 1 then Cert.Gcn.headOne (V c main_v81) (V c main_arg10) (V c main_v84) (V c main_arg12) (V c main_v85) n
      else Cert.Gcn.headOne (V c main_v81) (V c main_arg14) (V c main_v86) (V c main_arg16) (V c main_v87) n)
  have hrow : ∀ k : Fin 64, (iblk4 V c 0 t : Vec Ideal S10000x64 .f32) (ix2 p k)
      = (V c main_v81 : S100000x64.Idx → Ideal .f32) (ix2 n k) := fun k => hblk4_apply V c t p k n rfl
  rw [wblk4_1 V c t, wblk4_2 V c t, wblk4_3 V c t, wblk4_4 V c t, wblk4_5 V c t, wblk4_6 V c t, wblk4_7 V c t, wblk4_8 V c t, wblk4_9 V c t, wblk4_10 V c t, wblk4_11 V c t, wblk4_12 V c t]
  rw [headOne_rows _ _ (V c main_arg6) (V c main_v82) (V c main_arg8) (V c main_v83) p n hrow,
    headOne_rows _ _ (V c main_arg10) (V c main_v84) (V c main_arg12) (V c main_v85) p n hrow,
    headOne_rows _ _ (V c main_arg14) (V c main_v86) (V c main_arg16) (V c main_v87) p n hrow]

/-- An index of the result array is in point t's block iff each coordinate is in the block's range. -/
theorem mem_blk4 (t : Fin cfg4.N) (i : S100000x3.Idx) :
    i ∈ ((cfg4.win 13).blk t).view.set ↔ ∀ a : Fin 2, win4_13.index t a * S10000x3.size a ≤ (i a).val
      ∧ (i a).val < win4_13.index t a * S10000x3.size a + S10000x3.size a := by
  show i ∈ ((View.whole main_v88).slice (win4_13.rect t)).set ↔ _
  rw [View.set_slice_whole, Rect.mem_set_unit]
  exact Iff.rfl

/-- The ten row blocks tile the result: row n is in the block of point n / 10000. -/
theorem cover4 (i : S100000x3.Idx) :
    ∃ t : Fin cfg4.N, (cfg4.win 13).flush t = true ∧ i ∈ ((cfg4.win 13).blk t).view.set := by
  have hi0 : (i 0).val < 100000 := (i 0).isLt
  have hi1 : (i 1).val < 3 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, e2, e3⟩ := idx4_rows t
  refine ⟨t, flush4_13 t, ?_⟩
  rw [mem_blk4]
  intro a
  match a with
  | ⟨0, _⟩ =>
    show win4_13.index t (0 : Fin 2) * 10000 ≤ (i 0).val ∧ (i 0).val < win4_13.index t (0 : Fin 2) * 10000 + 10000
    rw [e2, ht]; omega
  | ⟨1, _⟩ =>
    show win4_13.index t (1 : Fin 2) * 3 ≤ (i 1).val ∧ (i 1).val < win4_13.index t (1 : Fin 2) * 3 + 3
    rw [e3]; omega

/-- The array the region leaves: the three heads of the hidden features, column by column. -/
theorem region4_out (c : Dev nD) :
    (dat4 (F := Ideal) V c).arrAt 13 cfg4.N
      = Cert.Gcn.headsOut (V c main_v81) (V c main_arg6) (V c main_v82) (V c main_arg8) (V c main_v83) (V c main_arg10) (V c main_v84) (V c main_arg12) (V c main_v85) (V c main_arg14) (V c main_v86) (V c main_arg16) (V c main_v87) :=
  (dat4 (F := Ideal) V c).arrAt_eq_of_cover 13 _ (fun t _ => flushed4 V c t) cover4

end Cert.KernelIdeal.Hand

end
-- ==== Proof.StretchA.lean ====
/-
  The host operations before the first region and between the first and the second, read at the buffers later code
  uses. Before the first region only the two rows of the edge list are cut out (the sources and the targets); no
  argument is written. Between the first two regions the host computes, from the first product and the edge list,
  the in-degrees plus one, their inverse square roots, the normalised messages gathered along the edges and summed
  into their targets, and lays the inverse square-root degrees out as a column and the bias as a row; the product,
  the two index rows and the remaining arguments pass through untouched.
-/
import proofs.«177190_j81853486727232_1_alg».proof.Proof.Gen.KernelIdeal.Frame
import proofs.«177190_j81853486727232_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region -/

theorem s0_arg0 : W1 m ρ c (Proc.devRef .tc main_arg0) = m ((c : Thread nD τ).loc main_arg0) := by
  show StableHlo.after hostOps0 (W0 m ρ c) (Proc.devRef .tc main_arg0) = _
  dsimp only [hostOps0]
  after_results_simp <;> rfl
theorem s0_arg2 : W1 m ρ c (Proc.devRef .tc main_arg2) = m ((c : Thread nD τ).loc main_arg2) := by
  show StableHlo.after hostOps0 (W0 m ρ c) (Proc.devRef .tc main_arg2) = _
  dsimp only [hostOps0]
  after_results_simp <;> rfl
theorem s0_arg3 : W1 m ρ c (Proc.devRef .tc main_arg3) = m ((c : Thread nD τ).loc main_arg3) := by
  show StableHlo.after hostOps0 (W0 m ρ c) (Proc.devRef .tc main_arg3) = _
  dsimp only [hostOps0]
  after_results_simp <;> rfl
theorem s0_arg4 : W1 m ρ c (Proc.devRef .tc main_arg4) = m ((c : Thread nD τ).loc main_arg4) := by
  show StableHlo.after hostOps0 (W0 m ρ c) (Proc.devRef .tc main_arg4) = _
  dsimp only [hostOps0]
  after_results_simp <;> rfl
theorem s0_arg5 : W1 m ρ c (Proc.devRef .tc main_arg5) = m ((c : Thread nD τ).loc main_arg5) := by
  show StableHlo.after hostOps0 (W0 m ρ c) (Proc.devRef .tc main_arg5) = _
  dsimp only [hostOps0]
  after_results_simp <;> rfl
theorem s0_arg6 : W1 m ρ c (Proc.devRef .tc main_arg6) = m ((c : Thread nD τ).loc main_arg6) := by
  show StableHlo.after hostOps0 (W0 m ρ c) (Proc.devRef .tc main_arg6) = _
  dsimp only [hostOps0]
  after_results_simp <;> rfl
theorem s0_arg7 : W1 m ρ c (Proc.devRef .tc main_arg7) = m ((c : Thread nD τ).loc main_arg7) := by
  show StableHlo.after hostOps0 (W0 m ρ c) (Proc.devRef .tc main_arg7) = _
  dsimp only [hostOps0]
  after_results_simp <;> rfl
theorem s0_arg8 : W1 m ρ c (Proc.devRef .tc main_arg8) = m ((c : Thread nD τ).loc main_arg8) := by
  show StableHlo.after hostOps0 (W0 m ρ c) (Proc.devRef .tc main_arg8) = _
  dsimp only [hostOps0]
  after_results_simp <;> rfl
theorem s0_arg9 : W1 m ρ c (Proc.devRef .tc main_arg9) = m ((c : Thread nD τ).loc main_arg9) := by
  show StableHlo.after hostOps0 (W0 m ρ c) (Proc.devRef .tc main_arg9) = _
  dsimp only [hostOps0]
  after_results_simp <;> rfl
theorem s0_arg10 : W1 m ρ c (Proc.devRef .tc main_arg10) = m ((c : Thread nD τ).loc main_arg10) := by
  show StableHlo.after hostOps0 (W0 m ρ c) (Proc.devRef .tc main_arg10) = _
  dsimp only [hostOps0]
  after_results_simp <;> rfl
theorem s0_arg11 : W1 m ρ c (Proc.devRef .tc main_arg11) = m ((c : Thread nD τ).loc main_arg11) := by
  show StableHlo.after hostOps0 (W0 m ρ c) (Proc.devRef .tc main_arg11) = _
  dsimp only [hostOps0]
  after_results_simp <;> rfl
theorem s0_arg12 : W1 m ρ c (Proc.devRef .tc main_arg12) = m ((c : Thread nD τ).loc main_arg12) := by
  show StableHlo.after hostOps0 (W0 m ρ c) (Proc.devRef .tc main_arg12) = _
  dsimp only [hostOps0]
  after_results_simp <;> rfl
theorem s0_arg13 : W1 m ρ c (Proc.devRef .tc main_arg13) = m ((c : Thread nD τ).loc main_arg13) := by
  show StableHlo.after hostOps0 (W0 m ρ c) (Proc.devRef .tc main_arg13) = _
  dsimp only [hostOps0]
  after_results_simp <;> rfl
theorem s0_arg14 : W1 m ρ c (Proc.devRef .tc main_arg14) = m ((c : Thread nD τ).loc main_arg14) := by
  show StableHlo.after hostOps0 (W0 m ρ c) (Proc.devRef .tc main_arg14) = _
  dsimp only [hostOps0]
  after_results_simp <;> rfl
theorem s0_arg15 : W1 m ρ c (Proc.devRef .tc main_arg15) = m ((c : Thread nD τ).loc main_arg15) := by
  show StableHlo.after hostOps0 (W0 m ρ c) (Proc.devRef .tc main_arg15) = _
  dsimp only [hostOps0]
  after_results_simp <;> rfl
theorem s0_arg16 : W1 m ρ c (Proc.devRef .tc main_arg16) = m ((c : Thread nD τ).loc main_arg16) := by
  show StableHlo.after hostOps0 (W0 m ρ c) (Proc.devRef .tc main_arg16) = _
  dsimp only [hostOps0]
  after_results_simp <;> rfl
theorem s0_arg17 : W1 m ρ c (Proc.devRef .tc main_arg17) = m ((c : Thread nD τ).loc main_arg17) := by
  show StableHlo.after hostOps0 (W0 m ρ c) (Proc.devRef .tc main_arg17) = _
  dsimp only [hostOps0]
  after_results_simp <;> rfl
/-- Row 0 of the edge list, as the reference cuts it out. -/
theorem s0_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]
  after_results_simp <;> rfl
/-- Row 1 of the edge list, as the reference cuts it out. -/
theorem s0_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results_simp <;> rfl

/-! ## Between the first and the second region -/

theorem s1_keep_v4 : W3 m ρ c (Proc.devRef .tc main_v4) = W2 m ρ c (Proc.devRef .tc main_v4) := by
  show StableHlo.after hostOps1 (W2 m ρ c) (Proc.devRef .tc main_v4) = _
  dsimp only [hostOps1]
  after_results_simp <;> rfl
theorem s1_keep_v1 : W3 m ρ c (Proc.devRef .tc main_v1) = W2 m ρ c (Proc.devRef .tc main_v1) := by
  show StableHlo.after hostOps1 (W2 m ρ c) (Proc.devRef .tc main_v1) = _
  dsimp only [hostOps1]
  after_results_simp <;> rfl
theorem s1_keep_v3 : W3 m ρ c (Proc.devRef .tc main_v3) = W2 m ρ c (Proc.devRef .tc main_v3) := by
  show StableHlo.after hostOps1 (W2 m ρ c) (Proc.devRef .tc main_v3) = _
  dsimp only [hostOps1]
  after_results_simp <;> rfl
theorem s1_keep_arg4 : W3 m ρ c (Proc.devRef .tc main_arg4) = W2 m ρ c (Proc.devRef .tc main_arg4) := by
  show StableHlo.after hostOps1 (W2 m ρ c) (Proc.devRef .tc main_arg4) = _
  dsimp only [hostOps1]
  after_results_simp <;> rfl
theorem s1_keep_arg5 : W3 m ρ c (Proc.devRef .tc main_arg5) = W2 m ρ c (Proc.devRef .tc main_arg5) := by
  show StableHlo.after hostOps1 (W2 m ρ c) (Proc.devRef .tc main_arg5) = _
  dsimp only [hostOps1]
  after_results_simp <;> rfl
theorem s1_keep_arg6 : W3 m ρ c (Proc.devRef .tc main_arg6) = W2 m ρ c (Proc.devRef .tc main_arg6) := by
  show StableHlo.after hostOps1 (W2 m ρ c) (Proc.devRef .tc main_arg6) = _
  dsimp only [hostOps1]
  after_results_simp <;> rfl
theorem s1_keep_arg7 : W3 m ρ c (Proc.devRef .tc main_arg7) = W2 m ρ c (Proc.devRef .tc main_arg7) := by
  show StableHlo.after hostOps1 (W2 m ρ c) (Proc.devRef .tc main_arg7) = _
  dsimp only [hostOps1]
  after_results_simp <;> rfl
theorem s1_keep_arg8 : W3 m ρ c (Proc.devRef .tc main_arg8) = W2 m ρ c (Proc.devRef .tc main_arg8) := by
  show StableHlo.after hostOps1 (W2 m ρ c) (Proc.devRef .tc main_arg8) = _
  dsimp only [hostOps1]
  after_results_simp <;> rfl
theorem s1_keep_arg9 : W3 m ρ c (Proc.devRef .tc main_arg9) = W2 m ρ c (Proc.devRef .tc main_arg9) := by
  show StableHlo.after hostOps1 (W2 m ρ c) (Proc.devRef .tc main_arg9) = _
  dsimp only [hostOps1]
  after_results_simp <;> rfl
theorem s1_keep_arg10 : W3 m ρ c (Proc.devRef .tc main_arg10) = W2 m ρ c (Proc.devRef .tc main_arg10) := by
  show StableHlo.after hostOps1 (W2 m ρ c) (Proc.devRef .tc main_arg10) = _
  dsimp only [hostOps1]
  after_results_simp <;> rfl
theorem s1_keep_arg11 : W3 m ρ c (Proc.devRef .tc main_arg11) = W2 m ρ c (Proc.devRef .tc main_arg11) := by
  show StableHlo.after hostOps1 (W2 m ρ c) (Proc.devRef .tc main_arg11) = _
  dsimp only [hostOps1]
  after_results_simp <;> rfl
theorem s1_keep_arg12 : W3 m ρ c (Proc.devRef .tc main_arg12) = W2 m ρ c (Proc.devRef .tc main_arg12) := by
  show StableHlo.after hostOps1 (W2 m ρ c) (Proc.devRef .tc main_arg12) = _
  dsimp only [hostOps1]
  after_results_simp <;> rfl
theorem s1_keep_arg13 : W3 m ρ c (Proc.devRef .tc main_arg13) = W2 m ρ c (Proc.devRef .tc main_arg13) := by
  show StableHlo.after hostOps1 (W2 m ρ c) (Proc.devRef .tc main_arg13) = _
  dsimp only [hostOps1]
  after_results_simp <;> rfl
theorem s1_keep_arg14 : W3 m ρ c (Proc.devRef .tc main_arg14) = W2 m ρ c (Proc.devRef .tc main_arg14) := by
  show StableHlo.after hostOps1 (W2 m ρ c) (Proc.devRef .tc main_arg14) = _
  dsimp only [hostOps1]
  after_results_simp <;> rfl
theorem s1_keep_arg15 : W3 m ρ c (Proc.devRef .tc main_arg15) = W2 m ρ c (Proc.devRef .tc main_arg15) := by
  show StableHlo.after hostOps1 (W2 m ρ c) (Proc.devRef .tc main_arg15) = _
  dsimp only [hostOps1]
  after_results_simp <;> rfl
theorem s1_keep_arg16 : W3 m ρ c (Proc.devRef .tc main_arg16) = W2 m ρ c (Proc.devRef .tc main_arg16) := by
  show StableHlo.after hostOps1 (W2 m ρ c) (Proc.devRef .tc main_arg16) = _
  dsimp only [hostOps1]
  after_results_simp <;> rfl
theorem s1_keep_arg17 : W3 m ρ c (Proc.devRef .tc main_arg17) = W2 m ρ c (Proc.devRef .tc main_arg17) := by
  show StableHlo.after hostOps1 (W2 m ρ c) (Proc.devRef .tc main_arg17) = _
  dsimp only [hostOps1]
  after_results_simp <;> rfl
/-- The aggregate of the first layer, from the first product and the two index rows. -/
theorem s1_v39 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S128x64, .f32⟩ : BufTy).Contents (Elt Ideal))
    (h4 : W2 m ρ c (Proc.devRef .tc main_v4) = Cert.ReferenceIdeal.Read.val_main_v4 (F := Ideal) x0 x2)
    (h1 : W2 m ρ c (Proc.devRef .tc main_v1) = Cert.ReferenceIdeal.Read.val_main_v1 (F := Ideal) x1)
    (h3 : W2 m ρ c (Proc.devRef .tc main_v3) = Cert.ReferenceIdeal.Read.val_main_v3 (F := Ideal) x1) :
    W3 m ρ c (Proc.devRef .tc main_v39) = Cert.ReferenceIdeal.Read.val_main_v39 (F := Ideal) x0 x1 x2 := by
  show StableHlo.after hostOps1 (W2 m ρ c) (Proc.devRef .tc main_v39) = _
  dsimp only [hostOps1]
  after_results_simp
  rw [h4, h1, h3]
  rfl
/-- The inverse square-root degrees, laid out as a column. -/
theorem s1_v40 (x1 : (⟨Cert.ReferenceIdeal.S2x3200000, .i32⟩ : BufTy).Contents (Elt Ideal))
    (h3 : W2 m ρ c (Proc.devRef .tc main_v3) = Cert.ReferenceIdeal.Read.val_main_v3 (F := Ideal) x1) :
    W3 m ρ c (Proc.devRef .tc main_v40)
      = shapeCast S100000x1 (Cert.ReferenceIdeal.Read.val_main_v11 (F := Ideal) x1) Cert.KernelIdeal.Gen.shapeCasts_S100000_S100000x1 := by
  show StableHlo.after hostOps1 (W2 m ρ c) (Proc.devRef .tc main_v40) = _
  dsimp only [hostOps1]
  after_results_simp
  rw [h3]
  rfl
/-- The first bias, laid out as a row. -/
theorem s1_v41 : W3 m ρ c (Proc.devRef .tc main_v41)
      = shapeCast S1x64 (W2 m ρ c (Proc.devRef .tc main_arg3)) Cert.KernelIdeal.Gen.shapeCasts_S64_S1x64 := by
  show StableHlo.after hostOps1 (W2 m ρ c) (Proc.devRef .tc main_v41) = _
  dsimp only [hostOps1]
  after_results_simp <;> rfl

end Cert.KernelIdeal.Hand

end
-- ==== Proof.StretchB.lean ====
/-
  The host operations between the third and the fourth region, read at the buffers later code uses: the same
  normalised aggregation as for the first layer, now of the second product; the second product and the arguments the
  heads read pass through untouched.
-/
import proofs.«177190_j81853486727232_1_alg».proof.Proof.Gen.KernelIdeal.Frame
import proofs.«177190_j81853486727232_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
theorem s3_keep_v43 : W6 m ρ c (Proc.devRef .tc main_v43) = W5 m ρ c (Proc.devRef .tc main_v43) := by
  show StableHlo.after hostOps3 (W5 m ρ c) (Proc.devRef .tc main_v43) = _
  dsimp only [hostOps3]
  after_results_simp <;> rfl
theorem s3_keep_arg6 : W6 m ρ c (Proc.devRef .tc main_arg6) = W5 m ρ c (Proc.devRef .tc main_arg6) := by
  show StableHlo.after hostOps3 (W5 m ρ c) (Proc.devRef .tc main_arg6) = _
  dsimp only [hostOps3]
  after_results_simp <;> rfl
theorem s3_keep_arg7 : W6 m ρ c (Proc.devRef .tc main_arg7) = W5 m ρ c (Proc.devRef .tc main_arg7) := by
  show StableHlo.after hostOps3 (W5 m ρ c) (Proc.devRef .tc main_arg7) = _
  dsimp only [hostOps3]
  after_results_simp <;> rfl
theorem s3_keep_arg8 : W6 m ρ c (Proc.devRef .tc main_arg8) = W5 m ρ c (Proc.devRef .tc main_arg8) := by
  show StableHlo.after hostOps3 (W5 m ρ c) (Proc.devRef .tc main_arg8) = _
  dsimp only [hostOps3]
  after_results_simp <;> rfl
theorem s3_keep_arg9 : W6 m ρ c (Proc.devRef .tc main_arg9) = W5 m ρ c (Proc.devRef .tc main_arg9) := by
  show StableHlo.after hostOps3 (W5 m ρ c) (Proc.devRef .tc main_arg9) = _
  dsimp only [hostOps3]
  after_results_simp <;> rfl
theorem s3_keep_arg10 : W6 m ρ c (Proc.devRef .tc main_arg10) = W5 m ρ c (Proc.devRef .tc main_arg10) := by
  show StableHlo.after hostOps3 (W5 m ρ c) (Proc.devRef .tc main_arg10) = _
  dsimp only [hostOps3]
  after_results_simp <;> rfl
theorem s3_keep_arg11 : W6 m ρ c (Proc.devRef .tc main_arg11) = W5 m ρ c (Proc.devRef .tc main_arg11) := by
  show StableHlo.after hostOps3 (W5 m ρ c) (Proc.devRef .tc main_arg11) = _
  dsimp only [hostOps3]
  after_results_simp <;> rfl
theorem s3_keep_arg12 : W6 m ρ c (Proc.devRef .tc main_arg12) = W5 m ρ c (Proc.devRef .tc main_arg12) := by
  show StableHlo.after hostOps3 (W5 m ρ c) (Proc.devRef .tc main_arg12) = _
  dsimp only [hostOps3]
  after_results_simp <;> rfl
theorem s3_keep_arg13 : W6 m ρ c (Proc.devRef .tc main_arg13) = W5 m ρ c (Proc.devRef .tc main_arg13) := by
  show StableHlo.after hostOps3 (W5 m ρ c) (Proc.devRef .tc main_arg13) = _
  dsimp only [hostOps3]
  after_results_simp <;> rfl
theorem s3_keep_arg14 : W6 m ρ c (Proc.devRef .tc main_arg14) = W5 m ρ c (Proc.devRef .tc main_arg14) := by
  show StableHlo.after hostOps3 (W5 m ρ c) (Proc.devRef .tc main_arg14) = _
  dsimp only [hostOps3]
  after_results_simp <;> rfl
theorem s3_keep_arg15 : W6 m ρ c (Proc.devRef .tc main_arg15) = W5 m ρ c (Proc.devRef .tc main_arg15) := by
  show StableHlo.after hostOps3 (W5 m ρ c) (Proc.devRef .tc main_arg15) = _
  dsimp only [hostOps3]
  after_results_simp <;> rfl
theorem s3_keep_arg16 : W6 m ρ c (Proc.devRef .tc main_arg16) = W5 m ρ c (Proc.devRef .tc main_arg16) := by
  show StableHlo.after hostOps3 (W5 m ρ c) (Proc.devRef .tc main_arg16) = _
  dsimp only [hostOps3]
  after_results_simp <;> rfl
theorem s3_keep_arg17 : W6 m ρ c (Proc.devRef .tc main_arg17) = W5 m ρ c (Proc.devRef .tc main_arg17) := by
  show StableHlo.after hostOps3 (W5 m ρ c) (Proc.devRef .tc main_arg17) = _
  dsimp only [hostOps3]
  after_results_simp <;> rfl
/-- The aggregate of the second layer, from the second product and the two index rows. -/
theorem s3_v78 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal))
    (h43 : W5 m ρ c (Proc.devRef .tc main_v43) = Cert.ReferenceIdeal.Read.val_main_v49 (F := Ideal) x0 x1 x2 x3 x4)
    (h1 : W5 m ρ c (Proc.devRef .tc main_v1) = Cert.ReferenceIdeal.Read.val_main_v1 (F := Ideal) x1)
    (h3 : W5 m ρ c (Proc.devRef .tc main_v3) = Cert.ReferenceIdeal.Read.val_main_v3 (F := Ideal) x1) :
    W6 m ρ c (Proc.devRef .tc main_v78) = Cert.ReferenceIdeal.Read.val_main_v84 (F := Ideal) x0 x1 x2 x3 x4 := by
  show StableHlo.after hostOps3 (W5 m ρ c) (Proc.devRef .tc main_v78) = _
  dsimp only [hostOps3]
  after_results_simp
  rw [h43, h1, h3]
  rfl
/-- The inverse square-root degrees again, laid out as a column. -/
theorem s3_v79 (x1 : (⟨Cert.ReferenceIdeal.S2x3200000, .i32⟩ : BufTy).Contents (Elt Ideal))
    (h3 : W5 m ρ c (Proc.devRef .tc main_v3) = Cert.ReferenceIdeal.Read.val_main_v3 (F := Ideal) x1) :
    W6 m ρ c (Proc.devRef .tc main_v79)
      = shapeCast S100000x1 (Cert.ReferenceIdeal.Read.val_main_v56 (F := Ideal) x1) Cert.KernelIdeal.Gen.shapeCasts_S100000_S100000x1 := by
  show StableHlo.after hostOps3 (W5 m ρ c) (Proc.devRef .tc main_v79) = _
  dsimp only [hostOps3]
  after_results_simp
  rw [h3]
  rfl
/-- The second bias, laid out as a row. -/
theorem s3_v80 : W6 m ρ c (Proc.devRef .tc main_v80)
      = shapeCast S1x64 (W5 m ρ c (Proc.devRef .tc main_arg5)) Cert.KernelIdeal.Gen.shapeCasts_S64_S1x64 := by
  show StableHlo.after hostOps3 (W5 m ρ c) (Proc.devRef .tc main_v80) = _
  dsimp only [hostOps3]
  after_results_simp <;> rfl

end Cert.KernelIdeal.Hand

end
-- ==== Proof.StretchC.lean ====
/-
  The host operations around the last region, read at the buffers later code uses: before it the six bias vectors
  of the heads are laid out as rows ([32] as [1, 32], [1] as [1, 1]); after it the three columns of the heads' array
  are cut out as the three results. The second layer's output and the heads' weights pass through untouched.
-/
import proofs.«177190_j81853486727232_1_alg».proof.Proof.Gen.KernelIdeal.Frame
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
theorem s4_keep_v81 : W8 m ρ c (Proc.devRef .tc main_v81) = W7 m ρ c (Proc.devRef .tc main_v81) := by
  show StableHlo.after hostOps4 (W7 m ρ c) (Proc.devRef .tc main_v81) = _
  dsimp only [hostOps4]
  after_results_simp <;> rfl
theorem s4_keep_arg6 : W8 m ρ c (Proc.devRef .tc main_arg6) = W7 m ρ c (Proc.devRef .tc main_arg6) := by
  show StableHlo.after hostOps4 (W7 m ρ c) (Proc.devRef .tc main_arg6) = _
  dsimp only [hostOps4]
  after_results_simp <;> rfl
theorem s4_keep_arg8 : W8 m ρ c (Proc.devRef .tc main_arg8) = W7 m ρ c (Proc.devRef .tc main_arg8) := by
  show StableHlo.after hostOps4 (W7 m ρ c) (Proc.devRef .tc main_arg8) = _
  dsimp only [hostOps4]
  after_results_simp <;> rfl
theorem s4_keep_arg10 : W8 m ρ c (Proc.devRef .tc main_arg10) = W7 m ρ c (Proc.devRef .tc main_arg10) := by
  show StableHlo.after hostOps4 (W7 m ρ c) (Proc.devRef .tc main_arg10) = _
  dsimp only [hostOps4]
  after_results_simp <;> rfl
theorem s4_keep_arg12 : W8 m ρ c (Proc.devRef .tc main_arg12) = W7 m ρ c (Proc.devRef .tc main_arg12) := by
  show StableHlo.after hostOps4 (W7 m ρ c) (Proc.devRef .tc main_arg12) = _
  dsimp only [hostOps4]
  after_results_simp <;> rfl
theorem s4_keep_arg14 : W8 m ρ c (Proc.devRef .tc main_arg14) = W7 m ρ c (Proc.devRef .tc main_arg14) := by
  show StableHlo.after hostOps4 (W7 m ρ c) (Proc.devRef .tc main_arg14) = _
  dsimp only [hostOps4]
  after_results_simp <;> rfl
theorem s4_keep_arg16 : W8 m ρ c (Proc.devRef .tc main_arg16) = W7 m ρ c (Proc.devRef .tc main_arg16) := by
  show StableHlo.after hostOps4 (W7 m ρ c) (Proc.devRef .tc main_arg16) = _
  dsimp only [hostOps4]
  after_results_simp <;> rfl
theorem s4_v82 : W8 m ρ c (Proc.devRef .tc main_v82)
      = shapeCast S1x32 (W7 m ρ c (Proc.devRef .tc main_arg7)) Cert.KernelIdeal.Gen.shapeCasts_S32_S1x32 := by
  show StableHlo.after hostOps4 (W7 m ρ c) (Proc.devRef .tc main_v82) = _
  dsimp only [hostOps4]
  after_results_simp <;> rfl
theorem s4_v83 : W8 m ρ c (Proc.devRef .tc main_v83)
      = shapeCast S1x1 (W7 m ρ c (Proc.devRef .tc main_arg9)) Cert.KernelIdeal.Gen.shapeCasts_S1_S1x1 := by
  show StableHlo.after hostOps4 (W7 m ρ c) (Proc.devRef .tc main_v83) = _
  dsimp only [hostOps4]
  after_results_simp <;> rfl
theorem s4_v84 : W8 m ρ c (Proc.devRef .tc main_v84)
      = shapeCast S1x32 (W7 m ρ c (Proc.devRef .tc main_arg11)) Cert.KernelIdeal.Gen.shapeCasts_S32_S1x32 := by
  show StableHlo.after hostOps4 (W7 m ρ c) (Proc.devRef .tc main_v84) = _
  dsimp only [hostOps4]
  after_results_simp <;> rfl
theorem s4_v85 : W8 m ρ c (Proc.devRef .tc main_v85)
      = shapeCast S1x1 (W7 m ρ c (Proc.devRef .tc main_arg13)) Cert.KernelIdeal.Gen.shapeCasts_S1_S1x1 := by
  show StableHlo.after hostOps4 (W7 m ρ c) (Proc.devRef .tc main_v85) = _
  dsimp only [hostOps4]
  after_results_simp <;> rfl
theorem s4_v86 : W8 m ρ c (Proc.devRef .tc main_v86)
      = shapeCast S1x32 (W7 m ρ c (Proc.devRef .tc main_arg15)) Cert.KernelIdeal.Gen.shapeCasts_S32_S1x32 := by
  show StableHlo.after hostOps4 (W7 m ρ c) (Proc.devRef .tc main_v86) = _
  dsimp only [hostOps4]
  after_results_simp <;> rfl
theorem s4_v87 : W8 m ρ c (Proc.devRef .tc main_v87)
      = shapeCast S1x1 (W7 m ρ c (Proc.devRef .tc main_arg17)) Cert.KernelIdeal.Gen.shapeCasts_S1_S1x1 := by
  show StableHlo.after hostOps4 (W7 m ρ c) (Proc.devRef .tc main_v87) = _
  dsimp only [hostOps4]
  after_results_simp <;> rfl
theorem s5_keep_v81 : W10 m ρ c (Proc.devRef .tc main_v81) = W9 m ρ c (Proc.devRef .tc main_v81) := by
  show StableHlo.after hostOps5 (W9 m ρ c) (Proc.devRef .tc main_v81) = _
  dsimp only [hostOps5]
  after_results_simp <;> rfl
/-- Column 0 of the heads' array. -/
theorem s5_v89 : W10 m ρ c (Proc.devRef .tc main_v89)
      = extractStridedSlice S100000x1 ![0, 0] (W9 m ρ c (Proc.devRef .tc main_v88)) Cert.KernelIdeal.Gen.slices_S100000x3_S100000x1_0_0 := by
  show StableHlo.after hostOps5 (W9 m ρ c) (Proc.devRef .tc main_v89) = _
  dsimp only [hostOps5]
  after_results_simp <;> rfl
/-- Column 1 of the heads' array. -/
theorem s5_v90 : W10 m ρ c (Proc.devRef .tc main_v90)
      = extractStridedSlice S100000x1 ![0, 1] (W9 m ρ c (Proc.devRef .tc main_v88)) Cert.KernelIdeal.Gen.slices_S100000x3_S100000x1_0_1 := by
  show StableHlo.after hostOps5 (W9 m ρ c) (Proc.devRef .tc main_v90) = _
  dsimp only [hostOps5]
  after_results_simp <;> rfl
/-- Column 2 of the heads' array. -/
theorem s5_v91 : W10 m ρ c (Proc.devRef .tc main_v91)
      = extractStridedSlice S100000x1 ![0, 2] (W9 m ρ c (Proc.devRef .tc main_v88)) Cert.KernelIdeal.Gen.slices_S100000x3_S100000x1_0_2 := by
  show StableHlo.after hostOps5 (W9 m ρ c) (Proc.devRef .tc main_v91) = _
  dsimp only [hostOps5]
  after_results_simp <;> rfl

end Cert.KernelIdeal.Hand

end
-- ==== Proof.KernelRun.lean ====
/-
  The idealized kernel's run with its buffers named: from any memory with zero counters every weakly fair execution
  of @main terminates, nothing faulting, and EVERY unscoped buffer of a core ends holding the last boundary's
  contents — the fold of the host stretches and of the five regions' write-backs over the launch memory. The results
  and the arguments are read off that one statement.
-/
import proofs.«177190_j81853486727232_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.Hand

end
-- ==== Proof.Assemble.lean ====
/-
  The idealized kernel's results, boundary by boundary.

  Walking @main from the launch: the first region leaves the first feature product; the host turns it, with the edge
  list, into the first layer's aggregate, the inverse square-root degree column and the bias row; the second region
  leaves the first layer's output; the third region its product with the second weights; the host aggregates again;
  the fourth region leaves the second layer's output — the first result; the host lays the heads' biases out as
  rows; the fifth region leaves the three heads as the columns of one array, and the host cuts the three columns out
  — the other three results. At every boundary each buffer that later code reads is named as the reference's own
  stage of the arguments, so the kernel's run ends with its four results at the reference's four result terms.
-/
import proofs.«177190_j81853486727232_1_alg».proof.Proof.Gen.KernelIdeal.Frame
import proofs.«177190_j81853486727232_1_alg».proof.Proof.Gen.ReferenceIdeal.Read
import proofs.«177190_j81853486727232_1_alg».proof.Proof.Spec
import proofs.«177190_j81853486727232_1_alg».proof.Proof.Bridge
import proofs.«177190_j81853486727232_1_alg».proof.Proof.Region0
import proofs.«177190_j81853486727232_1_alg».proof.Proof.Region2
import proofs.«177190_j81853486727232_1_alg».proof.Proof.Layer1
import proofs.«177190_j81853486727232_1_alg».proof.Proof.Layer3
import proofs.«177190_j81853486727232_1_alg».proof.Proof.Heads4
import proofs.«177190_j81853486727232_1_alg».proof.Proof.StretchA
import proofs.«177190_j81853486727232_1_alg».proof.Proof.StretchB
import proofs.«177190_j81853486727232_1_alg».proof.Proof.StretchC
import proofs.«177190_j81853486727232_1_alg».proof.Proof.KernelRun
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## After the first region -/

theorem b2_v4 : W2 m ρ c (Proc.devRef .tc main_v4) = Cert.ReferenceIdeal.Read.val_main_v4 (F := Ideal) (m ((c : Thread nD τ).loc main_arg0)) (m ((c : Thread nD τ).loc main_arg2)) := by
  refine (W2_arr m ρ c 2).trans ((region0_out (V1 m ρ) c).trans ?_)
  rw [show V1 m ρ c main_arg0 = m ((c : Thread nD τ).loc main_arg0) from s0_arg0 m ρ c, show V1 m ρ c main_arg2 = m ((c : Thread nD τ).loc main_arg2) from s0_arg2 m ρ c]
  exact Cert.Gcn.Bridge.mm1_eq _ _
theorem b2_v1 : W2 m ρ c (Proc.devRef .tc main_v1) = Cert.ReferenceIdeal.Read.val_main_v1 (F := Ideal) (m ((c : Thread nD τ).loc main_arg1)) :=
  (W2_of_ne m ρ c main_v1 (by decide)).trans (s0_v1 m ρ c)
theorem b2_v3 : W2 m ρ c (Proc.devRef .tc main_v3) = Cert.ReferenceIdeal.Read.val_main_v3 (F := Ideal) (m ((c : Thread nD τ).loc main_arg1)) :=
  (W2_of_ne m ρ c main_v3 (by decide)).trans (s0_v3 m ρ c)
theorem b2_arg3 : W2 m ρ c (Proc.devRef .tc main_arg3) = m ((c : Thread nD τ).loc main_arg3) :=
  (W2_of_ne m ρ c main_arg3 (by decide)).trans (s0_arg3 m ρ c)
theorem b2_arg4 : W2 m ρ c (Proc.devRef .tc main_arg4) = m ((c : Thread nD τ).loc main_arg4) :=
  (W2_of_ne m ρ c main_arg4 (by decide)).trans (s0_arg4 m ρ c)
theorem b2_arg5 : W2 m ρ c (Proc.devRef .tc main_arg5) = m ((c : Thread nD τ).loc main_arg5) :=
  (W2_of_ne m ρ c main_arg5 (by decide)).trans (s0_arg5 m ρ c)
theorem b2_arg6 : W2 m ρ c (Proc.devRef .tc main_arg6) = m ((c : Thread nD τ).loc main_arg6) :=
  (W2_of_ne m ρ c main_arg6 (by decide)).trans (s0_arg6 m ρ c)
theorem b2_arg7 : W2 m ρ c (Proc.devRef .tc main_arg7) = m ((c : Thread nD τ).loc main_arg7) :=
  (W2_of_ne m ρ c main_arg7 (by decide)).trans (s0_arg7 m ρ c)
theorem b2_arg8 : W2 m ρ c (Proc.devRef .tc main_arg8) = m ((c : Thread nD τ).loc main_arg8) :=
  (W2_of_ne m ρ c main_arg8 (by decide)).trans (s0_arg8 m ρ c)
theorem b2_arg9 : W2 m ρ c (Proc.devRef .tc main_arg9) = m ((c : Thread nD τ).loc main_arg9) :=
  (W2_of_ne m ρ c main_arg9 (by decide)).trans (s0_arg9 m ρ c)
theorem b2_arg10 : W2 m ρ c (Proc.devRef .tc main_arg10) = m ((c : Thread nD τ).loc main_arg10) :=
  (W2_of_ne m ρ c main_arg10 (by decide)).trans (s0_arg10 m ρ c)
theorem b2_arg11 : W2 m ρ c (Proc.devRef .tc main_arg11) = m ((c : Thread nD τ).loc main_arg11) :=
  (W2_of_ne m ρ c main_arg11 (by decide)).trans (s0_arg11 m ρ c)
theorem b2_arg12 : W2 m ρ c (Proc.devRef .tc main_arg12) = m ((c : Thread nD τ).loc main_arg12) :=
  (W2_of_ne m ρ c main_arg12 (by decide)).trans (s0_arg12 m ρ c)
theorem b2_arg13 : W2 m ρ c (Proc.devRef .tc main_arg13) = m ((c : Thread nD τ).loc main_arg13) :=
  (W2_of_ne m ρ c main_arg13 (by decide)).trans (s0_arg13 m ρ c)
theorem b2_arg14 : W2 m ρ c (Proc.devRef .tc main_arg14) = m ((c : Thread nD τ).loc main_arg14) :=
  (W2_of_ne m ρ c main_arg14 (by decide)).trans (s0_arg14 m ρ c)
theorem b2_arg15 : W2 m ρ c (Proc.devRef .tc main_arg15) = m ((c : Thread nD τ).loc main_arg15) :=
  (W2_of_ne m ρ c main_arg15 (by decide)).trans (s0_arg15 m ρ c)
theorem b2_arg16 : W2 m ρ c (Proc.devRef .tc main_arg16) = m ((c : Thread nD τ).loc main_arg16) :=
  (W2_of_ne m ρ c main_arg16 (by decide)).trans (s0_arg16 m ρ c)
theorem b2_arg17 : W2 m ρ c (Proc.devRef .tc main_arg17) = m ((c : Thread nD τ).loc main_arg17) :=
  (W2_of_ne m ρ c main_arg17 (by decide)).trans (s0_arg17 m ρ c)

/-! ## Before the second region -/

theorem b3_v39 : W3 m ρ c (Proc.devRef .tc main_v39) = Cert.ReferenceIdeal.Read.val_main_v39 (F := Ideal) (m ((c : Thread nD τ).loc main_arg0)) (m ((c : Thread nD τ).loc main_arg1)) (m ((c : Thread nD τ).loc main_arg2)) :=
  s1_v39 m ρ c _ _ _ (b2_v4 m ρ c) (b2_v1 m ρ c) (b2_v3 m ρ c)
theorem b3_v40 : W3 m ρ c (Proc.devRef .tc main_v40) = shapeCast S100000x1 (Cert.ReferenceIdeal.Read.val_main_v11 (F := Ideal) (m ((c : Thread nD τ).loc main_arg1))) Cert.KernelIdeal.Gen.shapeCasts_S100000_S100000x1 :=
  s1_v40 m ρ c _ (b2_v3 m ρ c)
theorem b3_v41 : W3 m ρ c (Proc.devRef .tc main_v41) = shapeCast S1x64 (m ((c : Thread nD τ).loc main_arg3)) Cert.KernelIdeal.Gen.shapeCasts_S64_S1x64 := by
  rw [s1_v41 m ρ c, b2_arg3 m ρ c]
theorem b3_v4 : W3 m ρ c (Proc.devRef .tc main_v4) = Cert.ReferenceIdeal.Read.val_main_v4 (F := Ideal) (m ((c : Thread nD τ).loc main_arg0)) (m ((c : Thread nD τ).loc main_arg2)) :=
  (s1_keep_v4 m ρ c).trans (b2_v4 m ρ c)
theorem b3_v1 : W3 m ρ c (Proc.devRef .tc main_v1) = Cert.ReferenceIdeal.Read.val_main_v1 (F := Ideal) (m ((c : Thread nD τ).loc main_arg1)) :=
  (s1_keep_v1 m ρ c).trans (b2_v1 m ρ c)
theorem b3_v3 : W3 m ρ c (Proc.devRef .tc main_v3) = Cert.ReferenceIdeal.Read.val_main_v3 (F := Ideal) (m ((c : Thread nD τ).loc main_arg1)) :=
  (s1_keep_v3 m ρ c).trans (b2_v3 m ρ c)
theorem b3_arg4 : W3 m ρ c (Proc.devRef .tc main_arg4) = m ((c : Thread nD τ).loc main_arg4) :=
  (s1_keep_arg4 m ρ c).trans (b2_arg4 m ρ c)
theorem b3_arg5 : W3 m ρ c (Proc.devRef .tc main_arg5) = m ((c : Thread nD τ).loc main_arg5) :=
  (s1_keep_arg5 m ρ c).trans (b2_arg5 m ρ c)
theorem b3_arg6 : W3 m ρ c (Proc.devRef .tc main_arg6) = m ((c : Thread nD τ).loc main_arg6) :=
  (s1_keep_arg6 m ρ c).trans (b2_arg6 m ρ c)
theorem b3_arg7 : W3 m ρ c (Proc.devRef .tc main_arg7) = m ((c : Thread nD τ).loc main_arg7) :=
  (s1_keep_arg7 m ρ c).trans (b2_arg7 m ρ c)
theorem b3_arg8 : W3 m ρ c (Proc.devRef .tc main_arg8) = m ((c : Thread nD τ).loc main_arg8) :=
  (s1_keep_arg8 m ρ c).trans (b2_arg8 m ρ c)
theorem b3_arg9 : W3 m ρ c (Proc.devRef .tc main_arg9) = m ((c : Thread nD τ).loc main_arg9) :=
  (s1_keep_arg9 m ρ c).trans (b2_arg9 m ρ c)
theorem b3_arg10 : W3 m ρ c (Proc.devRef .tc main_arg10) = m ((c : Thread nD τ).loc main_arg10) :=
  (s1_keep_arg10 m ρ c).trans (b2_arg10 m ρ c)
theorem b3_arg11 : W3 m ρ c (Proc.devRef .tc main_arg11) = m ((c : Thread nD τ).loc main_arg11) :=
  (s1_keep_arg11 m ρ c).trans (b2_arg11 m ρ c)
theorem b3_arg12 : W3 m ρ c (Proc.devRef .tc main_arg12) = m ((c : Thread nD τ).loc main_arg12) :=
  (s1_keep_arg12 m ρ c).trans (b2_arg12 m ρ c)
theorem b3_arg13 : W3 m ρ c (Proc.devRef .tc main_arg13) = m ((c : Thread nD τ).loc main_arg13) :=
  (s1_keep_arg13 m ρ c).trans (b2_arg13 m ρ c)
theorem b3_arg14 : W3 m ρ c (Proc.devRef .tc main_arg14) = m ((c : Thread nD τ).loc main_arg14) :=
  (s1_keep_arg14 m ρ c).trans (b2_arg14 m ρ c)
theorem b3_arg15 : W3 m ρ c (Proc.devRef .tc main_arg15) = m ((c : Thread nD τ).loc main_arg15) :=
  (s1_keep_arg15 m ρ c).trans (b2_arg15 m ρ c)
theorem b3_arg16 : W3 m ρ c (Proc.devRef .tc main_arg16) = m ((c : Thread nD τ).loc main_arg16) :=
  (s1_keep_arg16 m ρ c).trans (b2_arg16 m ρ c)
theorem b3_arg17 : W3 m ρ c (Proc.devRef .tc main_arg17) = m ((c : Thread nD τ).loc main_arg17) :=
  (s1_keep_arg17 m ρ c).trans (b2_arg17 m ρ c)

/-! ## After the second region: the first layer's output -/

theorem b4_v42 : W4 m ρ c (Proc.devRef .tc main_v42) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ((region1_out (V3 m ρ) c).trans ?_)
  rw [show V3 m ρ c main_v39 = _ from b3_v39 m ρ c, show V3 m ρ c main_v4 = _ from b3_v4 m ρ c,
    show V3 m ρ c main_v40 = _ from b3_v40 m ρ c, show V3 m ρ c main_v41 = _ from b3_v41 m ρ c]
  exact Cert.Gcn.Bridge.layer1_eq _ _ _ _ _ _
theorem b4_v1 : W4 m ρ c (Proc.devRef .tc main_v1) = Cert.ReferenceIdeal.Read.val_main_v1 (F := Ideal) (m ((c : Thread nD τ).loc main_arg1)) :=
  (W4_of_ne m ρ c main_v1 (by decide)).trans (b3_v1 m ρ c)
theorem b4_v3 : W4 m ρ c (Proc.devRef .tc main_v3) = Cert.ReferenceIdeal.Read.val_main_v3 (F := Ideal) (m ((c : Thread nD τ).loc main_arg1)) :=
  (W4_of_ne m ρ c main_v3 (by decide)).trans (b3_v3 m ρ c)
theorem b4_arg4 : W4 m ρ c (Proc.devRef .tc main_arg4) = m ((c : Thread nD τ).loc main_arg4) :=
  (W4_of_ne m ρ c main_arg4 (by decide)).trans (b3_arg4 m ρ c)
theorem b4_arg5 : W4 m ρ c (Proc.devRef .tc main_arg5) = m ((c : Thread nD τ).loc main_arg5) :=
  (W4_of_ne m ρ c main_arg5 (by decide)).trans (b3_arg5 m ρ c)
theorem b4_arg6 : W4 m ρ c (Proc.devRef .tc main_arg6) = m ((c : Thread nD τ).loc main_arg6) :=
  (W4_of_ne m ρ c main_arg6 (by decide)).trans (b3_arg6 m ρ c)
theorem b4_arg7 : W4 m ρ c (Proc.devRef .tc main_arg7) = m ((c : Thread nD τ).loc main_arg7) :=
  (W4_of_ne m ρ c main_arg7 (by decide)).trans (b3_arg7 m ρ c)
theorem b4_arg8 : W4 m ρ c (Proc.devRef .tc main_arg8) = m ((c : Thread nD τ).loc main_arg8) :=
  (W4_of_ne m ρ c main_arg8 (by decide)).trans (b3_arg8 m ρ c)
theorem b4_arg9 : W4 m ρ c (Proc.devRef .tc main_arg9) = m ((c : Thread nD τ).loc main_arg9) :=
  (W4_of_ne m ρ c main_arg9 (by decide)).trans (b3_arg9 m ρ c)
theorem b4_arg10 : W4 m ρ c (Proc.devRef .tc main_arg10) = m ((c : Thread nD τ).loc main_arg10) :=
  (W4_of_ne m ρ c main_arg10 (by decide)).trans (b3_arg10 m ρ c)
theorem b4_arg11 : W4 m ρ c (Proc.devRef .tc main_arg11) = m ((c : Thread nD τ).loc main_arg11) :=
  (W4_of_ne m ρ c main_arg11 (by decide)).trans (b3_arg11 m ρ c)
theorem b4_arg12 : W4 m ρ c (Proc.devRef .tc main_arg12) = m ((c : Thread nD τ).loc main_arg12) :=
  (W4_of_ne m ρ c main_arg12 (by decide)).trans (b3_arg12 m ρ c)
theorem b4_arg13 : W4 m ρ c (Proc.devRef .tc main_arg13) = m ((c : Thread nD τ).loc main_arg13) :=
  (W4_of_ne m ρ c main_arg13 (by decide)).trans (b3_arg13 m ρ c)
theorem b4_arg14 : W4 m ρ c (Proc.devRef .tc main_arg14) = m ((c : Thread nD τ).loc main_arg14) :=
  (W4_of_ne m ρ c main_arg14 (by decide)).trans (b3_arg14 m ρ c)
theorem b4_arg15 : W4 m ρ c (Proc.devRef .tc main_arg15) = m ((c : Thread nD τ).loc main_arg15) :=
  (W4_of_ne m ρ c main_arg15 (by decide)).trans (b3_arg15 m ρ c)
theorem b4_arg16 : W4 m ρ c (Proc.devRef .tc main_arg16) = m ((c : Thread nD τ).loc main_arg16) :=
  (W4_of_ne m ρ c main_arg16 (by decide)).trans (b3_arg16 m ρ c)
theorem b4_arg17 : W4 m ρ c (Proc.devRef .tc main_arg17) = m ((c : Thread nD τ).loc main_arg17) :=
  (W4_of_ne m ρ c main_arg17 (by decide)).trans (b3_arg17 m ρ c)

/-! ## After the third region: the second product -/

theorem b5_v43 : W5 m ρ c (Proc.devRef .tc main_v43) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((region2_out (V4 m ρ) c).trans ?_)
  rw [show V4 m ρ c main_v42 = _ from b4_v42 m ρ c, show V4 m ρ c main_arg4 = m ((c : Thread nD τ).loc main_arg4) from b4_arg4 m ρ c]
  exact Cert.Gcn.Bridge.mm2_eq _ _ _ _ _
theorem b5_v1 : W5 m ρ c (Proc.devRef .tc main_v1) = Cert.ReferenceIdeal.Read.val_main_v1 (F := Ideal) (m ((c : Thread nD τ).loc main_arg1)) :=
  (W5_of_ne m ρ c main_v1 (by decide)).trans (b4_v1 m ρ c)
theorem b5_v3 : W5 m ρ c (Proc.devRef .tc main_v3) = Cert.ReferenceIdeal.Read.val_main_v3 (F := Ideal) (m ((c : Thread nD τ).loc main_arg1)) :=
  (W5_of_ne m ρ c main_v3 (by decide)).trans (b4_v3 m ρ c)
theorem b5_arg5 : W5 m ρ c (Proc.devRef .tc main_arg5) = m ((c : Thread nD τ).loc main_arg5) :=
  (W5_of_ne m ρ c main_arg5 (by decide)).trans (b4_arg5 m ρ c)
theorem b5_arg6 : W5 m ρ c (Proc.devRef .tc main_arg6) = m ((c : Thread nD τ).loc main_arg6) :=
  (W5_of_ne m ρ c main_arg6 (by decide)).trans (b4_arg6 m ρ c)
theorem b5_arg7 : W5 m ρ c (Proc.devRef .tc main_arg7) = m ((c : Thread nD τ).loc main_arg7) :=
  (W5_of_ne m ρ c main_arg7 (by decide)).trans (b4_arg7 m ρ c)
theorem b5_arg8 : W5 m ρ c (Proc.devRef .tc main_arg8) = m ((c : Thread nD τ).loc main_arg8) :=
  (W5_of_ne m ρ c main_arg8 (by decide)).trans (b4_arg8 m ρ c)
theorem b5_arg9 : W5 m ρ c (Proc.devRef .tc main_arg9) = m ((c : Thread nD τ).loc main_arg9) :=
  (W5_of_ne m ρ c main_arg9 (by decide)).trans (b4_arg9 m ρ c)
theorem b5_arg10 : W5 m ρ c (Proc.devRef .tc main_arg10) = m ((c : Thread nD τ).loc main_arg10) :=
  (W5_of_ne m ρ c main_arg10 (by decide)).trans (b4_arg10 m ρ c)
theorem b5_arg11 : W5 m ρ c (Proc.devRef .tc main_arg11) = m ((c : Thread nD τ).loc main_arg11) :=
  (W5_of_ne m ρ c main_arg11 (by decide)).trans (b4_arg11 m ρ c)
theorem b5_arg12 : W5 m ρ c (Proc.devRef .tc main_arg12) = m ((c : Thread nD τ).loc main_arg12) :=
  (W5_of_ne m ρ c main_arg12 (by decide)).trans (b4_arg12 m ρ c)
theorem b5_arg13 : W5 m ρ c (Proc.devRef .tc main_arg13) = m ((c : Thread nD τ).loc main_arg13) :=
  (W5_of_ne m ρ c main_arg13 (by decide)).trans (b4_arg13 m ρ c)
theorem b5_arg14 : W5 m ρ c (Proc.devRef .tc main_arg14) = m ((c : Thread nD τ).loc main_arg14) :=
  (W5_of_ne m ρ c main_arg14 (by decide)).trans (b4_arg14 m ρ c)
theorem b5_arg15 : W5 m ρ c (Proc.devRef .tc main_arg15) = m ((c : Thread nD τ).loc main_arg15) :=
  (W5_of_ne m ρ c main_arg15 (by decide)).trans (b4_arg15 m ρ c)
theorem b5_arg16 : W5 m ρ c (Proc.devRef .tc main_arg16) = m ((c : Thread nD τ).loc main_arg16) :=
  (W5_of_ne m ρ c main_arg16 (by decide)).trans (b4_arg16 m ρ c)
theorem b5_arg17 : W5 m ρ c (Proc.devRef .tc main_arg17) = m ((c : Thread nD τ).loc main_arg17) :=
  (W5_of_ne m ρ c main_arg17 (by decide)).trans (b4_arg17 m ρ c)

/-! ## Before the fourth region -/

theorem b6_v78 : W6 m ρ c (Proc.devRef .tc main_v78) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  s3_v78 m ρ c _ _ _ _ _ (b5_v43 m ρ c) (b5_v1 m ρ c) (b5_v3 m ρ c)
theorem b6_v79 : W6 m ρ c (Proc.devRef .tc main_v79) = shapeCast S100000x1 (Cert.ReferenceIdeal.Read.val_main_v56 (F := Ideal) (m ((c : Thread nD τ).loc main_arg1))) Cert.KernelIdeal.Gen.shapeCasts_S100000_S100000x1 :=
  s3_v79 m ρ c _ (b5_v3 m ρ c)
theorem b6_v80 : W6 m ρ c (Proc.devRef .tc main_v80) = shapeCast S1x64 (m ((c : Thread nD τ).loc main_arg5)) Cert.KernelIdeal.Gen.shapeCasts_S64_S1x64 := by
  rw [s3_v80 m ρ c, b5_arg5 m ρ c]
theorem b6_v43 : W6 m ρ c (Proc.devRef .tc main_v43) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (s3_keep_v43 m ρ c).trans (b5_v43 m ρ c)
theorem b6_arg6 : W6 m ρ c (Proc.devRef .tc main_arg6) = m ((c : Thread nD τ).loc main_arg6) :=
  (s3_keep_arg6 m ρ c).trans (b5_arg6 m ρ c)
theorem b6_arg7 : W6 m ρ c (Proc.devRef .tc main_arg7) = m ((c : Thread nD τ).loc main_arg7) :=
  (s3_keep_arg7 m ρ c).trans (b5_arg7 m ρ c)
theorem b6_arg8 : W6 m ρ c (Proc.devRef .tc main_arg8) = m ((c : Thread nD τ).loc main_arg8) :=
  (s3_keep_arg8 m ρ c).trans (b5_arg8 m ρ c)
theorem b6_arg9 : W6 m ρ c (Proc.devRef .tc main_arg9) = m ((c : Thread nD τ).loc main_arg9) :=
  (s3_keep_arg9 m ρ c).trans (b5_arg9 m ρ c)
theorem b6_arg10 : W6 m ρ c (Proc.devRef .tc main_arg10) = m ((c : Thread nD τ).loc main_arg10) :=
  (s3_keep_arg10 m ρ c).trans (b5_arg10 m ρ c)
theorem b6_arg11 : W6 m ρ c (Proc.devRef .tc main_arg11) = m ((c : Thread nD τ).loc main_arg11) :=
  (s3_keep_arg11 m ρ c).trans (b5_arg11 m ρ c)
theorem b6_arg12 : W6 m ρ c (Proc.devRef .tc main_arg12) = m ((c : Thread nD τ).loc main_arg12) :=
  (s3_keep_arg12 m ρ c).trans (b5_arg12 m ρ c)
theorem b6_arg13 : W6 m ρ c (Proc.devRef .tc main_arg13) = m ((c : Thread nD τ).loc main_arg13) :=
  (s3_keep_arg13 m ρ c).trans (b5_arg13 m ρ c)
theorem b6_arg14 : W6 m ρ c (Proc.devRef .tc main_arg14) = m ((c : Thread nD τ).loc main_arg14) :=
  (s3_keep_arg14 m ρ c).trans (b5_arg14 m ρ c)
theorem b6_arg15 : W6 m ρ c (Proc.devRef .tc main_arg15) = m ((c : Thread nD τ).loc main_arg15) :=
  (s3_keep_arg15 m ρ c).trans (b5_arg15 m ρ c)
theorem b6_arg16 : W6 m ρ c (Proc.devRef .tc main_arg16) = m ((c : Thread nD τ).loc main_arg16) :=
  (s3_keep_arg16 m ρ c).trans (b5_arg16 m ρ c)
theorem b6_arg17 : W6 m ρ c (Proc.devRef .tc main_arg17) = m ((c : Thread nD τ).loc main_arg17) :=
  (s3_keep_arg17 m ρ c).trans (b5_arg17 m ρ c)

/-! ## After the fourth region: the second layer's output, the first result -/

theorem b7_v81 : W7 m ρ c (Proc.devRef .tc main_v81) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ((region3_out (V6 m ρ) c).trans ?_)
  rw [show V6 m ρ c main_v78 = _ from b6_v78 m ρ c, show V6 m ρ c main_v43 = _ from b6_v43 m ρ c,
    show V6 m ρ c main_v79 = _ from b6_v79 m ρ c, show V6 m ρ c main_v80 = _ from b6_v80 m ρ c]
  exact Cert.Gcn.Bridge.layer2_eq _ _ _ _ _ _ _ _
theorem b7_arg6 : W7 m ρ c (Proc.devRef .tc main_arg6) = m ((c : Thread nD τ).loc main_arg6) :=
  (W7_of_ne m ρ c main_arg6 (by decide)).trans (b6_arg6 m ρ c)
theorem b7_arg7 : W7 m ρ c (Proc.devRef .tc main_arg7) = m ((c : Thread nD τ).loc main_arg7) :=
  (W7_of_ne m ρ c main_arg7 (by decide)).trans (b6_arg7 m ρ c)
theorem b7_arg8 : W7 m ρ c (Proc.devRef .tc main_arg8) = m ((c : Thread nD τ).loc main_arg8) :=
  (W7_of_ne m ρ c main_arg8 (by decide)).trans (b6_arg8 m ρ c)
theorem b7_arg9 : W7 m ρ c (Proc.devRef .tc main_arg9) = m ((c : Thread nD τ).loc main_arg9) :=
  (W7_of_ne m ρ c main_arg9 (by decide)).trans (b6_arg9 m ρ c)
theorem b7_arg10 : W7 m ρ c (Proc.devRef .tc main_arg10) = m ((c : Thread nD τ).loc main_arg10) :=
  (W7_of_ne m ρ c main_arg10 (by decide)).trans (b6_arg10 m ρ c)
theorem b7_arg11 : W7 m ρ c (Proc.devRef .tc main_arg11) = m ((c : Thread nD τ).loc main_arg11) :=
  (W7_of_ne m ρ c main_arg11 (by decide)).trans (b6_arg11 m ρ c)
theorem b7_arg12 : W7 m ρ c (Proc.devRef .tc main_arg12) = m ((c : Thread nD τ).loc main_arg12) :=
  (W7_of_ne m ρ c main_arg12 (by decide)).trans (b6_arg12 m ρ c)
theorem b7_arg13 : W7 m ρ c (Proc.devRef .tc main_arg13) = m ((c : Thread nD τ).loc main_arg13) :=
  (W7_of_ne m ρ c main_arg13 (by decide)).trans (b6_arg13 m ρ c)
theorem b7_arg14 : W7 m ρ c (Proc.devRef .tc main_arg14) = m ((c : Thread nD τ).loc main_arg14) :=
  (W7_of_ne m ρ c main_arg14 (by decide)).trans (b6_arg14 m ρ c)
theorem b7_arg15 : W7 m ρ c (Proc.devRef .tc main_arg15) = m ((c : Thread nD τ).loc main_arg15) :=
  (W7_of_ne m ρ c main_arg15 (by decide)).trans (b6_arg15 m ρ c)
theorem b7_arg16 : W7 m ρ c (Proc.devRef .tc main_arg16) = m ((c : Thread nD τ).loc main_arg16) :=
  (W7_of_ne m ρ c main_arg16 (by decide)).trans (b6_arg16 m ρ c)
theorem b7_arg17 : W7 m ρ c (Proc.devRef .tc main_arg17) = m ((c : Thread nD τ).loc main_arg17) :=
  (W7_of_ne m ρ c main_arg17 (by decide)).trans (b6_arg17 m ρ c)

/-! ## Before the fifth region -/

theorem b8_v82 : W8 m ρ c (Proc.devRef .tc main_v82) = shapeCast S1x32 (m ((c : Thread nD τ).loc main_arg7)) Cert.KernelIdeal.Gen.shapeCasts_S32_S1x32 := by
  rw [s4_v82 m ρ c, b7_arg7 m ρ c]
theorem b8_v83 : W8 m ρ c (Proc.devRef .tc main_v83) = shapeCast S1x1 (m ((c : Thread nD τ).loc main_arg9)) Cert.KernelIdeal.Gen.shapeCasts_S1_S1x1 := by
  rw [s4_v83 m ρ c, b7_arg9 m ρ c]
theorem b8_v84 : W8 m ρ c (Proc.devRef .tc main_v84) = shapeCast S1x32 (m ((c : Thread nD τ).loc main_arg11)) Cert.KernelIdeal.Gen.shapeCasts_S32_S1x32 := by
  rw [s4_v84 m ρ c, b7_arg11 m ρ c]
theorem b8_v85 : W8 m ρ c (Proc.devRef .tc main_v85) = shapeCast S1x1 (m ((c : Thread nD τ).loc main_arg13)) Cert.KernelIdeal.Gen.shapeCasts_S1_S1x1 := by
  rw [s4_v85 m ρ c, b7_arg13 m ρ c]
theorem b8_v86 : W8 m ρ c (Proc.devRef .tc main_v86) = shapeCast S1x32 (m ((c : Thread nD τ).loc main_arg15)) Cert.KernelIdeal.Gen.shapeCasts_S32_S1x32 := by
  rw [s4_v86 m ρ c, b7_arg15 m ρ c]
theorem b8_v87 : W8 m ρ c (Proc.devRef .tc main_v87) = shapeCast S1x1 (m ((c : Thread nD τ).loc main_arg17)) Cert.KernelIdeal.Gen.shapeCasts_S1_S1x1 := by
  rw [s4_v87 m ρ c, b7_arg17 m ρ c]
theorem b8_v81 : W8 m ρ c (Proc.devRef .tc main_v81) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (s4_keep_v81 m ρ c).trans (b7_v81 m ρ c)
theorem b8_arg6 : W8 m ρ c (Proc.devRef .tc main_arg6) = m ((c : Thread nD τ).loc main_arg6) :=
  (s4_keep_arg6 m ρ c).trans (b7_arg6 m ρ c)
theorem b8_arg8 : W8 m ρ c (Proc.devRef .tc main_arg8) = m ((c : Thread nD τ).loc main_arg8) :=
  (s4_keep_arg8 m ρ c).trans (b7_arg8 m ρ c)
theorem b8_arg10 : W8 m ρ c (Proc.devRef .tc main_arg10) = m ((c : Thread nD τ).loc main_arg10) :=
  (s4_keep_arg10 m ρ c).trans (b7_arg10 m ρ c)
theorem b8_arg12 : W8 m ρ c (Proc.devRef .tc main_arg12) = m ((c : Thread nD τ).loc main_arg12) :=
  (s4_keep_arg12 m ρ c).trans (b7_arg12 m ρ c)
theorem b8_arg14 : W8 m ρ c (Proc.devRef .tc main_arg14) = m ((c : Thread nD τ).loc main_arg14) :=
  (s4_keep_arg14 m ρ c).trans (b7_arg14 m ρ c)
theorem b8_arg16 : W8 m ρ c (Proc.devRef .tc main_arg16) = m ((c : Thread nD τ).loc main_arg16) :=
  (s4_keep_arg16 m ρ c).trans (b7_arg16 m ρ c)

/-! ## After the fifth region: the three heads as columns -/

theorem b9_v88 : W9 m ρ c (Proc.devRef .tc main_v88)
    = Cert.Gcn.headsOut (N := 100000) (H := 64) (J := 32) (Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (shapeCast S1x32 (m ((c : Thread nD τ).loc main_arg7)) Cert.KernelIdeal.Gen.shapeCasts_S32_S1x32) (m ((c : Thread nD τ).loc main_arg8)) (shapeCast S1x1 (m ((c : Thread nD τ).loc main_arg9)) Cert.KernelIdeal.Gen.shapeCasts_S1_S1x1) (m ((c : Thread nD τ).loc main_arg10)) (shapeCast S1x32 (m ((c : Thread nD τ).loc main_arg11)) Cert.KernelIdeal.Gen.shapeCasts_S32_S1x32) (m ((c : Thread nD τ).loc main_arg12)) (shapeCast S1x1 (m ((c : Thread nD τ).loc main_arg13)) Cert.KernelIdeal.Gen.shapeCasts_S1_S1x1) (m ((c : Thread nD τ).loc main_arg14)) (shapeCast S1x32 (m ((c : Thread nD τ).loc main_arg15)) Cert.KernelIdeal.Gen.shapeCasts_S32_S1x32) (m ((c : Thread nD τ).loc main_arg16)) (shapeCast S1x1 (m ((c : Thread nD τ).loc main_arg17)) Cert.KernelIdeal.Gen.shapeCasts_S1_S1x1) := by
  refine (W9_arr m ρ c 13).trans ((region4_out (V8 m ρ) c).trans ?_)
  rw [show V8 m ρ c main_v81 = _ from b8_v81 m ρ c, show V8 m ρ c main_arg6 = m ((c : Thread nD τ).loc main_arg6) from b8_arg6 m ρ c,
    show V8 m ρ c main_v82 = _ from b8_v82 m ρ c, show V8 m ρ c main_arg8 = m ((c : Thread nD τ).loc main_arg8) from b8_arg8 m ρ c,
    show V8 m ρ c main_v83 = _ from b8_v83 m ρ c, show V8 m ρ c main_arg10 = m ((c : Thread nD τ).loc main_arg10) from b8_arg10 m ρ c,
    show V8 m ρ c main_v84 = _ from b8_v84 m ρ c, show V8 m ρ c main_arg12 = m ((c : Thread nD τ).loc main_arg12) from b8_arg12 m ρ c,
    show V8 m ρ c main_v85 = _ from b8_v85 m ρ c, show V8 m ρ c main_arg14 = m ((c : Thread nD τ).loc main_arg14) from b8_arg14 m ρ c,
    show V8 m ρ c main_v86 = _ from b8_v86 m ρ c, show V8 m ρ c main_arg16 = m ((c : Thread nD τ).loc main_arg16) from b8_arg16 m ρ c,
    show V8 m ρ c main_v87 = _ from b8_v87 m ρ c]
/-- The second layer's output is an input of the fifth region: the region leaves it as it found it. -/
theorem b9_v81 : W9 m ρ c (Proc.devRef .tc main_v81) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W9_arr m ρ c 0).trans (((dat4 (V8 m ρ) c).arrAt_in 0 rfl _).trans (A_eq4 (V8 m ρ) c 0))).trans (b8_v81 m ρ c)

/-! ## At the return: the four results -/

theorem b10_v81 : W10 m ρ c (Proc.devRef .tc main_v81) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (s5_keep_v81 m ρ c).trans (b9_v81 m ρ c)
/-- Column 0 of the heads' array is head 0, the reference's result 1. -/
theorem b10_v89 : W10 m ρ c (Proc.devRef .tc main_v89) = Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [s5_v89 m ρ c, b9_v88 m ρ c]
  funext i
  obtain ⟨n, u, rfl⟩ : ∃ (n : Fin 100000) (u : Fin 1), i = ix2 n u := ⟨i 0, i 1, eq_ix2 i⟩
  obtain rfl : u = 0 := Subsingleton.elim _ _
  refine (slice2_axis1_apply 0 _ _ n (0 : Fin 1) (0 : Fin 3) rfl).trans ?_
  refine Eq.trans ?_ (Cert.Gcn.Bridge.head_d_eq _ _ _ _ _ _ _ _ _ _ Cert.KernelIdeal.Gen.shapeCasts_S32_S1x32 Cert.KernelIdeal.Gen.shapeCasts_S1_S1x1 n)
  unfold Cert.Gcn.headsOut
  show (if ((0 : Fin 3)).val = 0 then _ else if ((0 : Fin 3)).val = 1 then _ else _) = _
  exact if_pos rfl
/-- Column 1 of the heads' array is head 1, the reference's result 2. -/
theorem b10_v90 : W10 m ρ c (Proc.devRef .tc main_v90) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) := by
  rw [s5_v90 m ρ c, b9_v88 m ρ c]
  funext i
  obtain ⟨n, u, rfl⟩ : ∃ (n : Fin 100000) (u : Fin 1), i = ix2 n u := ⟨i 0, i 1, eq_ix2 i⟩
  obtain rfl : u = 0 := Subsingleton.elim _ _
  refine (slice2_axis1_apply 1 _ _ n (0 : Fin 1) (1 : Fin 3) rfl).trans ?_
  refine Eq.trans ?_ (Cert.Gcn.Bridge.head_i_eq _ _ _ _ _ _ _ _ _ _ Cert.KernelIdeal.Gen.shapeCasts_S32_S1x32 Cert.KernelIdeal.Gen.shapeCasts_S1_S1x1 n)
  unfold Cert.Gcn.headsOut
  show (if ((1 : Fin 3)).val = 0 then _ else if ((1 : Fin 3)).val = 1 then _ else _) = _
  rw [if_neg (show ¬ ((1 : Fin 3).val = 0) by decide)]; exact if_pos rfl
/-- Column 2 of the heads' array is head 2, the reference's result 3. -/
theorem b10_v91 : W10 m ρ c (Proc.devRef .tc main_v91) = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15)) (m ((c : Thread nD τ).loc main_arg16)) (m ((c : Thread nD τ).loc main_arg17)) := by
  rw [s5_v91 m ρ c, b9_v88 m ρ c]
  funext i
  obtain ⟨n, u, rfl⟩ : ∃ (n : Fin 100000) (u : Fin 1), i = ix2 n u := ⟨i 0, i 1, eq_ix2 i⟩
  obtain rfl : u = 0 := Subsingleton.elim _ _
  refine (slice2_axis1_apply 2 _ _ n (0 : Fin 1) (2 : Fin 3) rfl).trans ?_
  refine Eq.trans ?_ (Cert.Gcn.Bridge.head_c_eq _ _ _ _ _ _ _ _ _ _ Cert.KernelIdeal.Gen.shapeCasts_S32_S1x32 Cert.KernelIdeal.Gen.shapeCasts_S1_S1x1 n)
  unfold Cert.Gcn.headsOut
  show (if ((2 : Fin 3)).val = 0 then _ else if ((2 : Fin 3)).val = 1 then _ else _) = _
  rw [if_neg (show ¬ ((2 : Fin 3).val = 0) by decide), if_neg (show ¬ ((2 : Fin 3).val = 1) by decide)]

/-- The idealized kernel's run, read: every weakly fair execution terminates, nothing faulting, with the four results
    at the reference's four stages of the arguments and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v81) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v89) = Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v90) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v91) = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15)) (m ((c : Thread nD τ).loc main_arg16)) (m ((c : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v81 (by decide))).trans (b10_v81 m ρ c),
     (h c _ (mem_uc main_v89 (by decide))).trans (b10_v89 m ρ c),
     (h c _ (mem_uc main_v90 (by decide))).trans (b10_v90 m ρ c),
     (h c _ (mem_uc main_v91 (by decide))).trans (b10_v91 m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c),
     (h c _ (mem_uc main_arg12 (by decide))).trans (W10_main_arg12 m ρ c),
     (h c _ (mem_uc main_arg13 (by decide))).trans (W10_main_arg13 m ρ c),
     (h c _ (mem_uc main_arg14 (by decide))).trans (W10_main_arg14 m ρ c),
     (h c _ (mem_uc main_arg15 (by decide))).trans (W10_main_arg15 m ρ c),
     (h c _ (mem_uc main_arg16 (by decide))).trans (W10_main_arg16 m ρ c),
     (h c _ (mem_uc main_arg17 (by decide))).trans (W10_main_arg17 m ρ c)⟩)
    (run_all m ρ)

end Cert.KernelIdeal.Hand

end
-- ==== Proof.lean ====
/-
  A two-layer graph convolution with three read-out heads, kernel against reference, over the extended reals.

  Both programs compute, for node features x, an edge list and weights:
    h1 = max (A (x · W1) + b1) 0,   h2 = max (A (h1 · W2) + b2) 0,   head = 1 / (1 + exp (-(max (h2 · Wa + ba) 0 · Wb + bb)))
  for three heads, where A y = (the messages y[src] * d[src] * d[dst] summed into their targets) + y * d², d the inverse
  square roots of the in-degrees plus one. The kernel computes the two products, the two bias-and-clamp steps and the
  three heads in five tiled regions, one block of 10000 nodes per grid point, and leaves the gathers and the
  scatter-additions to the same host operations the reference uses; the reference computes everything on whole arrays.

  Over the extended reals the two agree entry by entry with no condition on the inputs: a product accumulated into zero
  block of rows by block of rows is the whole product's plain sum, narrowing a factor to sixteen bits is the identity,
  a column or a row laid along the other axis is read the same whichever way it is broadcast, the logistic function
  IS 1 / (1 + exp (-z)), and cutting column j out of three columns laid side by side gives back column j. Every other
  operation is the same operation applied to equal operands. The word-level kernel's idealization rewrote nothing, so
  that claim is trivial; the three frame claims are the generated frames and the reference's generated run.
-/
import proofs.«177190_j81853486727232_1_alg».proof.Defs
import proofs.«177190_j81853486727232_1_alg».proof.Proof.Gen.Kernel
import proofs.«177190_j81853486727232_1_alg».proof.Proof.Gen.Kernel.Frame
import proofs.«177190_j81853486727232_1_alg».proof.Proof.Gen.KernelIdeal
import proofs.«177190_j81853486727232_1_alg».proof.Proof.Gen.KernelIdeal.Frame
import proofs.«177190_j81853486727232_1_alg».proof.Proof.Gen.ReferenceIdeal
import proofs.«177190_j81853486727232_1_alg».proof.Proof.Gen.ReferenceIdeal.Run
import proofs.«177190_j81853486727232_1_alg».proof.Proof.Gen.ReferenceIdeal.Read
import proofs.«177190_j81853486727232_1_alg».proof.Proof.Gen.Pre_finite_inputs
import proofs.«177190_j81853486727232_1_alg».proof.Proof.Assemble
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, with the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- Both runs end with the second layer's output and the three heads at the reference's stages of the arguments; the
    memories agree on the arguments, so the results are equal. -/
theorem algebraic : Cert.algebraic_KernelIdeal_ReferenceIdeal := by
  intro m ρ m' ρ' _ hagree
  refine ⟨_, _, _, _, Cert.KernelIdeal.Hand.kernel_run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17⟩ := hagree c
  obtain ⟨r0, r1, r2, r3, rest⟩ := h c
  refine ⟨r0.trans ?_, r1.trans ?_, r2.trans ?_, r3.trans ?_, rest⟩
  · rw [Cert.ReferenceIdeal.Read.val_main_v93_eq, a0, a1, a2, a3, a4, a5]
  · rw [Cert.ReferenceIdeal.Read.val_main_v108_eq, a0, a1, a2, a3, a4, a5, a6, a7, a8, a9]
  · rw [Cert.ReferenceIdeal.Read.val_main_v123_eq, a0, a1, a2, a3, a4, a5, a10, a11, a12, a13]
  · rw [Cert.ReferenceIdeal.Read.val_main_v138_eq, a0, a1, a2, a3, a4, a5, a14, a15, a16, a17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
